-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S64x6 : Shape := ⟨2, ![64, 6]⟩
abbrev S64 : Shape := ⟨1, ![64]⟩
abbrev S64x64 : Shape := ⟨2, ![64, 64]⟩
abbrev S3x64 : Shape := ⟨2, ![3, 64]⟩
abbrev S3 : Shape := ⟨1, ![3]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg12 : FVec F S3 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3 .f32 := Host.absf main_arg12
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg8 : FVec F S64x64 .f32) (main_arg9 : FVec F S64 .f32) (main_arg10 : FVec F S64x64 .f32) (main_arg11 : FVec F S3x64 .f32) (main_arg12 : FVec F S3 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S3x64 .f32 := Host.absf main_arg11
  let main_cst_18 : FVec F S_ .f32 := constant S_ .f32 0x7F800000#32
  let main_v50 : FVec F S3x64 .f32 := broadcastInDim S3x64 ![] bcast_S_S3x64 main_cst_18
  fn_part3 (F := F) main_arg12 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S3x64 .f32) (main_arg12 : FVec F S3 .f32) (main_v13 : IVec S_ 1) (main_v16 : IVec S64x6 1) : IVec S_ 1 :=
  let main_c_5 : IVec S_ 1 := constantI S_ 1 1#1
  let main_v17 : IVec S_ 1 := (fun x v => Host.reduce IntOp.andi x v reducesTo_S64x6_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x6 .f32) (main_arg1 : IVec S2x1600000 32) (main_arg2 : FVec F S64x6 .f32) (main_arg3 : FVec F S64 .f32) (main_arg4 : FVec F S64x6 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S3x64 .f32) (main_arg12 : FVec F S3 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S64x6 .f32 := Host.absf main_arg2
  let main_cst_0 : FVec F S_ .f32 := constant S_ .f32 0x7F800000#32
  let main_v5 : FVec F S64x6 .f32 := broadcastInDim S64x6 ![] bcast_S_S64x6 main_cst_0
  let main_v6 : IVec S64x6 1 := cmpf .olt main_v4 main_v5
  let main_c_1 : IVec S_ 1 := constantI S_ 1 1#1
  let main_v7 : IVec S_ 1 := (fun x v => Host.reduce IntOp.andi x v reducesTo_S64x6_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x6 .f32 := Host.absf main_arg4
  let main_cst_4 : FVec F S_ .f32 := constant S_ .f32 0x7F800000#32
  let main_v15 : FVec F S64x6 .f32 := broadcastInDim S64x6 ![] bcast_S_S64x6 main_cst_4
  let main_v16 : IVec S64x6 1 := cmpf .olt main_v14 main_v15
  fn_part1 (F := F) main_arg5 main_arg6 main_arg7 main_arg8 main_arg9 main_arg10 main_arg11 main_arg12 main_v13 main_v16
-- ==== Kernel.lean ====
abbrev S100000x6 : Shape := ⟨2, ![100000, 6]⟩
abbrev S2x1600000 : Shape := ⟨2, ![2, 1600000]⟩
abbrev S64x6 : Shape := ⟨2, ![64, 6]⟩
abbrev S64 : Shape := ⟨1, ![64]⟩
abbrev S64x64 : Shape := ⟨2, ![64, 64]⟩
abbrev S3x64 : Shape := ⟨2, ![3, 64]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x6 : Shape := ⟨2, ![1600000, 6]⟩
abbrev S6x64 : Shape := ⟨2, ![6, 64]⟩
abbrev S1x64 : Shape := ⟨2, ![1, 64]⟩
abbrev S100000x64 : Shape := ⟨2, ![100000, 64]⟩
abbrev S5000x6 : Shape := ⟨2, ![5000, 6]⟩
abbrev S5000x1 : Shape := ⟨2, ![5000, 1]⟩
abbrev S5000x64 : Shape := ⟨2, ![5000, 64]⟩
abbrev S1600000x64 : Shape := ⟨2, ![1600000, 64]⟩
abbrev S64x3 : Shape := ⟨2, ![64, 3]⟩
abbrev S1x3 : Shape := ⟨2, ![1, 3]⟩
abbrev S100000x3 : Shape := ⟨2, ![100000, 3]⟩
abbrev S5000x3 : Shape := ⟨2, ![5000, 3]⟩

abbrev nBuf : Space → Nat
  | .hbm => 84
  | .vmem => 39
  | .smem => 0
  | _ => 0

abbrev bufTy : (tb : Table) → Fin (tcTables nBuf tb) → BufTy
  | .hbm, ⟨0, _⟩ => ⟨S100000x6, .f32⟩
  | .hbm, ⟨1, _⟩ => ⟨S2x1600000, .i32⟩
  | .hbm, ⟨2, _⟩ => ⟨S64x6, .f32⟩
  | .hbm, ⟨3, _⟩ => ⟨S64, .f32⟩
  | .hbm, ⟨4, _⟩ => ⟨S64x6, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S3x64, .f32⟩
  | .hbm, ⟨12, _⟩ => ⟨S3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x6, .f32⟩
  | .hbm, ⟨39, _⟩ => ⟨S_, .f32⟩
  | .hbm, ⟨40, _⟩ => ⟨S100000x6, .f32⟩
  | .hbm, ⟨41, _⟩ => ⟨S1600000x1, .i32⟩
  | .hbm, ⟨42, _⟩ => ⟨S100000x6, .f32⟩
  | .hbm, ⟨43, _⟩ => ⟨S6x64, .f32⟩
  | .hbm, ⟨44, _⟩ => ⟨S6x64, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S64x64, .f32⟩
  | .hbm, ⟨61, _⟩ => ⟨S64x64, .f32⟩
  | .hbm, ⟨62, _⟩ => ⟨S1x64, .f32⟩
  | .hbm, ⟨63, _⟩ => ⟨S100000x64, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S64x64, .f32⟩
  | .hbm, ⟨78, _⟩ => ⟨S64x64, .f32⟩
  | .hbm, ⟨79, _⟩ => ⟨S1x64, .f32⟩
  | .hbm, ⟨80, _⟩ => ⟨S100000x64, .f32⟩
  | .hbm, ⟨81, _⟩ => ⟨S64x3, .f32⟩
  | .hbm, ⟨82, _⟩ => ⟨S1x3, .f32⟩
  | .hbm, ⟨83, _⟩ => ⟨S100000x3, .f32⟩
  | .local _ .vmem, ⟨0, _⟩ => ⟨S5000x6, .f32⟩
  | .local _ .vmem, ⟨1, _⟩ => ⟨S5000x6, .f32⟩
  | .local _ .vmem, ⟨2, _⟩ => ⟨S5000x6, .f32⟩
  | .local _ .vmem, ⟨3, _⟩ => ⟨S5000x6, .f32⟩
  | .local _ .vmem, ⟨4, _⟩ => ⟨S5000x1, .f32⟩
  | .local _ .vmem, ⟨5, _⟩ => ⟨S5000x1, .f32⟩
  | .local _ .vmem, ⟨6, _⟩ => ⟨S6x64, .f32⟩
  | .local _ .vmem, ⟨7, _⟩ => ⟨S6x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x1, .f32⟩
  | .local _ .vmem, ⟨27, _⟩ => ⟨S5000x1, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S64x3, .f32⟩
  | .local _ .vmem, ⟨36, _⟩ => ⟨S1x3, .f32⟩
  | .local _ .vmem, ⟨37, _⟩ => ⟨S5000x3, .f32⟩
  | .local _ .vmem, ⟨38, _⟩ => ⟨S5000x3, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem3_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x3 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x6 : S_.BroadcastsInDim S100000x6 (![] : Fin 0 → Fin S100000x6.rank)
  transposes_S64x6_S6x64_1_0 : S64x6.Transposes [1, 0] S6x64
  shapeCasts_S64_S1x64 : S64.ShapeCasts S1x64
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x6 : S5000x1.Broadcasts S5000x6
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  shapeCasts_S6x64_S6x64 : S6x64.ShapeCasts S6x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  transposes_S64x64_S64x64_1_0 : S64x64.Transposes [1, 0] S64x64
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S3x64_S64x3_1_0 : S3x64.Transposes [1, 0] S64x3
  shapeCasts_S3_S1x3 : S3.ShapeCasts S1x3
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S100000_S1600000x1_S1600000_n_0_0_1_wf : ScatterDims.WF S100000 S1600000x1 S1600000 [] [0] [0] 1
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S5000x6_S6x64_S5000x64_1_0_0_1_n_n_wf : DotDims.WF S5000x6 S6x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x3_S5000x3_1_0_0_1_n_n_wf : DotDims.WF S5000x64 S64x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x6.size a ≤ S100000x6.size a
  hwx0_1 : ∀ i : grid0.Coords, EltTy.bits .f32 = 32 ∨ (Rect.block (s := S100000x6) S5000x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x64.size a ≤ S6x64.size a
  hwx0_3 : ∀ i : grid0.Coords, EltTy.bits .f32 = 32 ∨ (Rect.block (s := S6x64) S6x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x64.size a ≤ S6x64.size a
  hwx0_4 : ∀ i : grid0.Coords, EltTy.bits .f32 = 32 ∨ (Rect.block (s := S6x64) S6x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x3.size a ≤ S64x3.size a
  hwx3_1 : ∀ i : grid3.Coords, EltTy.bits .f32 = 32 ∨ (Rect.block (s := S64x3) S64x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3.size a ≤ S1x3.size a
  hwx3_2 : ∀ i : grid3.Coords, EltTy.bits .f32 = 32 ∨ (Rect.block (s := S1x3) S1x3.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x3.size a ≤ S100000x3.size a
  hwx3_3 : ∀ i : grid3.Coords, EltTy.bits .f32 = 32 ∨ (Rect.block (s := S100000x3) S5000x3.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S5000x6_S6x64_S5000x64_1_0_0_1_n_n : DotDims S5000x6 S6x64 S5000x64 where
  lhsContracting := [1]
  rhsContracting := [0]
  lhsNonContracting := [0]
  rhsNonContracting := [1]
  lhsBatch := []
  rhsBatch := []
  wf := dot_S5000x6_S6x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf

abbrev win0_0 : Pipeline.Window sig grid0 :=
  Pipeline.Window.ofSpec (Memref.whole main_v22) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S6x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S6x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S64x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x3.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S64x6 : Shape := ⟨2, ![64, 6]⟩
abbrev S64 : Shape := ⟨1, ![64]⟩
abbrev S64x64 : Shape := ⟨2, ![64, 64]⟩
abbrev S3x64 : Shape := ⟨2, ![3, 64]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x6 : Shape := ⟨2, ![1600000, 6]⟩
abbrev S100000x1 : Shape := ⟨2, ![100000, 1]⟩
abbrev S6x64 : Shape := ⟨2, ![6, 64]⟩
abbrev S100000x64 : Shape := ⟨2, ![100000, 64]⟩
abbrev S1x64 : Shape := ⟨2, ![1, 64]⟩
abbrev S1600000x64 : Shape := ⟨2, ![1600000, 64]⟩
abbrev S64x3 : Shape := ⟨2, ![64, 3]⟩
abbrev S100000x3 : Shape := ⟨2, ![100000, 3]⟩
abbrev S1x3 : Shape := ⟨2, ![1, 3]⟩

abbrev nBuf : Space → Nat
  | .hbm => 130
  | .vmem => 0
  | .smem => 0
  | _ => 0

abbrev hbmTy0_0 (i : Nat) : BufTy := match i % 128 with
  | 0 => ⟨S100000x6, .f32⟩
  | 1 => ⟨S2x1600000, .i32⟩
  | 2 => ⟨S64x6, .f32⟩
  | 3 => ⟨S64, .f32⟩
  | 4 => ⟨S64x6, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S3x64, .f32⟩
  | 12 => ⟨S3, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x6, .f32⟩
  | 32 => ⟨S_, .f32⟩
  | 33 => ⟨S100000x6, .f32⟩
  | 34 => ⟨S1600000x1, .i32⟩
  | 35 => ⟨S100000x6, .f32⟩
  | 36 => ⟨S_, .f32⟩
  | 37 => ⟨S100000, .f32⟩
  | 38 => ⟨S100000, .f32⟩
  | 39 => ⟨S100000x1, .f32⟩
  | 40 => ⟨S100000x6, .f32⟩
  | 41 => ⟨S100000x6, .f32⟩
  | 42 => ⟨S6x64, .f32⟩
  | 43 => ⟨S100000x64, .f32⟩
  | 44 => ⟨S1x64, .f32⟩
  | 45 => ⟨S100000x64, .f32⟩
  | 46 => ⟨S100000x64, .f32⟩
  | 47 => ⟨S6x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S_, .f32⟩
  | 54 => ⟨S1600000, .f32⟩
  | 55 => ⟨S_, .f32⟩
  | 56 => ⟨S100000, .f32⟩
  | 57 => ⟨S1600000x1, .i32⟩
  | 58 => ⟨S100000, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S_, .f32⟩
  | 73 => ⟨S100000, .f32⟩
  | 74 => ⟨S100000, .f32⟩
  | 75 => ⟨S100000x1, .f32⟩
  | 76 => ⟨S100000x64, .f32⟩
  | 77 => ⟨S100000x64, .f32⟩
  | 78 => ⟨S64x64, .f32⟩
  | 79 => ⟨S100000x64, .f32⟩
  | 80 => ⟨S1x64, .f32⟩
  | 81 => ⟨S100000x64, .f32⟩
  | 82 => ⟨S100000x64, .f32⟩
  | 83 => ⟨S64x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S_, .f32⟩
  | 90 => ⟨S1600000, .f32⟩
  | 91 => ⟨S_, .f32⟩
  | 92 => ⟨S100000, .f32⟩
  | 93 => ⟨S1600000x1, .i32⟩
  | 94 => ⟨S100000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S_, .f32⟩
  | 109 => ⟨S100000, .f32⟩
  | 110 => ⟨S100000, .f32⟩
  | 111 => ⟨S100000x1, .f32⟩
  | 112 => ⟨S100000x64, .f32⟩
  | 113 => ⟨S100000x64, .f32⟩
  | 114 => ⟨S64x64, .f32⟩
  | 115 => ⟨S100000x64, .f32⟩
  | 116 => ⟨S1x64, .f32⟩
  | 117 => ⟨S100000x64, .f32⟩
  | 118 => ⟨S100000x64, .f32⟩
  | 119 => ⟨S64x64, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S64x3, .f32⟩
  | 126 => ⟨S100000x3, .f32⟩
  | 127 => ⟨S1x3, .f32⟩
  | _ => ⟨S100000x6, .f32⟩

abbrev hbmTy0_1 (i : Nat) : BufTy := match i % 128 with
  | 0 => ⟨S100000x3, .f32⟩
  | 1 => ⟨S100000x3, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_c_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call2_cst : Ref sig .tc := ⟨.hbm, 122, rfl⟩
abbrev main_call2_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  transposes_S64x6_S6x64_1_0 : S64x6.Transposes [1, 0] S6x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S3x64_S64x3_1_0 : S3x64.Transposes [1, 0] S64x3
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1600000x1_S1600000_n_0_0_1_wf : ScatterDims.WF S100000 S1600000x1 S1600000 [] [0] [0] 1
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S100000x6_S6x64_S100000x64_1_0_0_1_n_n_wf : DotDims.WF S100000x6 S6x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x3_S100000x3_1_0_0_1_n_n_wf : DotDims.WF S100000x64 S64x3 S100000x3 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf

class Facts : Prop extends Facts₀ where

variable [Facts]
-- ==== Proof.KernelRun.lean ====
/-
  The kernel program's run with its result named.  Every weakly fair execution of the program on the TensorCores
  terminates without a fault; at the end the result array holds the last boundary's contents of its buffer — the
  fold of the program's four host stretches and four pallas_calls from the launch memory — and every argument array
  is as launched.  This is the frame's own argument with one conjunct more: the final thread state holds every
  unscoped buffer at the last boundary's contents, the result's buffer among them.
-/
import proofs.«157071_j31585189495032_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_named : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.KRun

end
-- ==== Proof.Spec.lean ====
/-
  One mean-aggregating graph layer, and the linear head, as two programs compute them on the extended reals.

  A layer takes the per-node sums `S` of the neighbours' features, the nodes' own features `x`, a per-node
  divisor (the in-degree, at least one), two weight matrices and a bias.  One program multiplies `S` by the
  reciprocal of the divisor, contracts with the transposed weights handed to it, adds the self term and then the
  bias; the other divides `S` by the divisor, contracts with the weights read transposed, adds the bias and then
  the self term.  Both end with a maximum against zero.

  The two agree on every extended real: for a divisor `d` that is not zero, `s · (1 / d)` is `s / d` (both are `s`
  times the inverse of `d`, also at the infinities), and the two orders of the three-term sum differ by
  commutativity and associativity of addition alone, which hold on the extended reals without any finiteness.
-/
import Idealize.ShloMosaic.Lib.ValueIdx
import Idealize.ShloMosaic.PureOps.Ideal
import Idealize.ShloMosaic.Lib.IdealHost

noncomputable section

namespace Cert.Sage

open Idealize.ShloMosaic Idealize.ShloMosaic.ValueIdx

/-- An `a × b` array of extended reals. -/
abbrev Mat (a b : Nat) : Type := (⟨2, ![a, b]⟩ : Shape).Idx → EReal
/-- A length-`a` array of extended reals. -/
abbrev Vc (a : Nat) : Type := (⟨1, ![a]⟩ : Shape).Idx → EReal

variable {N C H : Nat}

/-- Entry `(p, q)` of the layer with the reciprocal column `inv` (N × 1), weights given as `C × H` and the bias as a
    `1 × H` row: `max ((Σₖ (S p k · inv p) · wl k q + Σₖ x p k · wr k q) + b q) 0`. -/
def kLayerAt (S x : Mat N C) (inv : Mat N 1) (wl wr : Mat C H) (b : Mat 1 H) (p : Fin N) (q : Fin H) : EReal :=
  max (((∑ k : Fin C, (S (ix2 p k) * inv (ix2 p (0 : Fin 1))) * wl (ix2 k q))
        + ∑ k : Fin C, x (ix2 p k) * wr (ix2 k q)) + b (ix2 (0 : Fin 1) q)) 0

/-- The layer as an array. -/
def kLayer (S x : Mat N C) (inv : Mat N 1) (wl wr : Mat C H) (b : Mat 1 H) : Mat N H :=
  fun i => kLayerAt S x inv wl wr b (i 0) (i 1)

/-- Entry `(p, q)` of the linear head with the weights given as `C × H` and the bias as a row: `Σₖ h p k · w k q + b q`. -/
def kHeadAt (h : Mat N C) (w : Mat C H) (b : Mat 1 H) (p : Fin N) (q : Fin H) : EReal :=
  (∑ k : Fin C, h (ix2 p k) * w (ix2 k q)) + b (ix2 (0 : Fin 1) q)

/-- The head as an array. -/
def kHead (h : Mat N C) (w : Mat C H) (b : Mat 1 H) : Mat N H := fun i => kHeadAt h w b (i 0) (i 1)

/-- Entry `(p, q)` of the layer with the divisor vector `d` (length N), weights given as `H × C` and read transposed,
    and the bias as a vector: `max ((Σₖ (S p k / d p) · wl q k + b q) + Σₖ x p k · wr q k) 0`. -/
def rLayerAt (S x : Mat N C) (d : Vc N) (wl wr : Mat H C) (b : Vc H) (p : Fin N) (q : Fin H) : EReal :=
  max (((∑ k : Fin C, Ideal.div (S (ix2 p k)) (d (ix1 p)) * wl (ix2 q k)) + b (ix1 q))
        + ∑ k : Fin C, x (ix2 p k) * wr (ix2 q k)) 0

/-- The layer as an array. -/
def rLayer (S x : Mat N C) (d : Vc N) (wl wr : Mat H C) (b : Vc H) : Mat N H :=
  fun i => rLayerAt S x d wl wr b (i 0) (i 1)

/-- Entry `(p, q)` of the linear head with the weights given as `H × C` and read transposed, and the bias as a vector. -/
def rHeadAt (h : Mat N C) (w : Mat H C) (b : Vc H) (p : Fin N) (q : Fin H) : EReal :=
  (∑ k : Fin C, h (ix2 p k) * w (ix2 q k)) + b (ix1 q)

/-- The head as an array. -/
def rHead (h : Mat N C) (w : Mat H C) (b : Vc H) : Mat N H := fun i => rHeadAt h w b (i 0) (i 1)

/-- The two layers agree, entry by entry, when the reciprocal column holds `1 / d` of a divisor that is not zero, the
    weights are each other's transposes and the bias row is the bias vector. -/
theorem kLayerAt_eq_rLayerAt (S x : Mat N C) (inv : Mat N 1) (d : Vc N) (wl' wr' : Mat C H) (wl wr : Mat H C)
    (b' : Mat 1 H) (b : Vc H)
    (hd : ∀ p : Fin N, d (ix1 p) ≠ 0)
    (hinv : ∀ p : Fin N, inv (ix2 p (0 : Fin 1)) = Ideal.div 1 (d (ix1 p)))
    (hwl : ∀ (k : Fin C) (q : Fin H), wl' (ix2 k q) = wl (ix2 q k))
    (hwr : ∀ (k : Fin C) (q : Fin H), wr' (ix2 k q) = wr (ix2 q k))
    (hb : ∀ q : Fin H, b' (ix2 (0 : Fin 1) q) = b (ix1 q)) (p : Fin N) (q : Fin H) :
    kLayerAt S x inv wl' wr' b' p q = rLayerAt S x d wl wr b p q := by
  unfold kLayerAt rLayerAt
  have e1 : (∑ k : Fin C, (S (ix2 p k) * inv (ix2 p (0 : Fin 1))) * wl' (ix2 k q))
      = ∑ k : Fin C, Ideal.div (S (ix2 p k)) (d (ix1 p)) * wl (ix2 q k) :=
    Finset.sum_congr rfl fun k _ => by rw [hinv, Ideal.mul_one_div (hd p), hwl]
  have e2 : (∑ k : Fin C, x (ix2 p k) * wr' (ix2 k q)) = ∑ k : Fin C, x (ix2 p k) * wr (ix2 q k) :=
    Finset.sum_congr rfl fun k _ => by rw [hwr]
  rw [e1, e2, hb, add_right_comm]

/-- The two layers agree as arrays. -/
theorem kLayer_eq_rLayer (S x : Mat N C) (inv : Mat N 1) (d : Vc N) (wl' wr' : Mat C H) (wl wr : Mat H C)
    (b' : Mat 1 H) (b : Vc H)
    (hd : ∀ p : Fin N, d (ix1 p) ≠ 0)
    (hinv : ∀ p : Fin N, inv (ix2 p (0 : Fin 1)) = Ideal.div 1 (d (ix1 p)))
    (hwl : ∀ (k : Fin C) (q : Fin H), wl' (ix2 k q) = wl (ix2 q k))
    (hwr : ∀ (k : Fin C) (q : Fin H), wr' (ix2 k q) = wr (ix2 q k))
    (hb : ∀ q : Fin H, b' (ix2 (0 : Fin 1) q) = b (ix1 q)) :
    kLayer S x inv wl' wr' b' = rLayer S x d wl wr b :=
  funext fun i => kLayerAt_eq_rLayerAt S x inv d wl' wr' wl wr b' b hd hinv hwl hwr hb (i 0) (i 1)

/-- The two heads agree, entry by entry, when the weights are each other's transposes and the bias row is the bias
    vector. -/
theorem kHeadAt_eq_rHeadAt (h : Mat N C) (w' : Mat C H) (w : Mat H C) (b' : Mat 1 H) (b : Vc H)
    (hw : ∀ (k : Fin C) (q : Fin H), w' (ix2 k q) = w (ix2 q k))
    (hb : ∀ q : Fin H, b' (ix2 (0 : Fin 1) q) = b (ix1 q)) (p : Fin N) (q : Fin H) :
    kHeadAt h w' b' p q = rHeadAt h w b p q := by
  unfold kHeadAt rHeadAt
  rw [hb]
  exact congrArg (· + b (ix1 q)) (Finset.sum_congr rfl fun k _ => by rw [hw])

/-- The two heads agree as arrays. -/
theorem kHead_eq_rHead (h : Mat N C) (w' : Mat C H) (w : Mat H C) (b' : Mat 1 H) (b : Vc H)
    (hw : ∀ (k : Fin C) (q : Fin H), w' (ix2 k q) = w (ix2 q k))
    (hb : ∀ q : Fin H, b' (ix2 (0 : Fin 1) q) = b (ix1 q)) :
    kHead h w' b' = rHead h w b :=
  funext fun i => kHeadAt_eq_rHeadAt h w' w b' b hw hb (i 0) (i 1)

end Cert.Sage

end
-- ==== Proof.KDefs.lean ====
/-
  The pieces of the network that the host computes, as functions of the argument arrays, and the whole network as
  one function of them — for the program `KernelIdeal`.

  `dst` and `src` are the edge list's two rows as index columns (a negative source id wrapped by the number of
  nodes, as indexing does); `degree` counts, per node, the edges that end there (a scatter-add of ones onto zeros);
  `divisor` is the degree or one, whichever is larger; `recip` is its reciprocal, as a column; `agg6` / `agg64` gather the source rows of a feature
  array and add them up per destination node.  `kNet` is three layers and the linear head over these.
-/
import proofs.«157071_j31585189495032_1_alg».proof.Proof.Gen.KernelIdeal
import proofs.«157071_j31585189495032_1_alg».proof.Proof.Spec

noncomputable section

namespace Cert.KernelIdeal.KVal

open Cert.KernelIdeal Cert.KernelIdeal.Gen Idealize.ShloMosaic Idealize.ShloMosaic.TcCoe Idealize.SL.Sem Cert.Sage

/-- The edge list: two rows of node ids. -/
abbrev Edges : Type := (⟨S2x1600000, .i32⟩ : BufTy).Contents (Elt Ideal)
/-- An index column, one id per edge. -/
abbrev IdCol : Type := (⟨S1600000x1, .i32⟩ : BufTy).Contents (Elt Ideal)

/-- Row 0 of the edge list: the source ids. -/
def srcRow (e : Edges) : (⟨S1600000, .i32⟩ : BufTy).Contents (Elt Ideal) :=
  shapeCast _ (extractStridedSlice S1x1600000 ![0, 0] e slices_S2x1600000_S1x1600000_0_0) shapeCasts_S1x1600000_S1600000

/-- Row 1 of the edge list, as a column: the destination ids. -/
def dst (e : Edges) : IdCol :=
  broadcastInDim S1600000x1 ![0] bcast_S1600000_S1600000x1_0
    (shapeCast _ (extractStridedSlice S1x1600000 ![1, 0] e slices_S2x1600000_S1x1600000_1_0) shapeCasts_S1x1600000_S1600000)

/-- The source ids, a negative one wrapped by the number of nodes, as a column. -/
def src (e : Edges) : IdCol :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))

/-- The in-degree of every node: ones, one per edge, added up per destination onto zeros. -/
def degree (e : Edges) : FVec Ideal S100000 .f32 :=
  Host.scatterAdd (F := Ideal) scatter_S100000_S1600000x1_S1600000_n_0_0_1
    (broadcastInDim S100000 ![] bcast_S_S100000 (constant (F := Ideal) S_ .f32 0x00000000#32)) (dst e)
    (broadcastInDim S1600000 ![] bcast_S_S1600000 (constant (F := Ideal) S_ .f32 0x3F800000#32))

/-- The divisor of the mean: the in-degree, or one where that is larger. -/
def divisor (e : Edges) : FVec Ideal S100000 .f32 :=
  maximumf (F := Ideal) (degree e) (broadcastInDim S100000 ![] bcast_S_S100000 (constant (F := Ideal) S_ .f32 0x3F800000#32))

/-- One over the divisor, as a column. -/
def recip (e : Edges) : FVec Ideal S100000x1 .f32 :=
  shapeCast S100000x1 (Host.divf (F := Ideal) (broadcastInDim S100000 ![] bcast_S_S100000 (constant (F := Ideal) S_ .f32 0x3F800000#32)) (divisor e))
    shapeCasts_S100000_S100000x1

/-- The neighbour sums of a 6-column feature array: its source rows gathered, added up per destination onto zeros. -/
def agg6 (e : Edges) (h : FVec Ideal S100000x6 .f32) : FVec Ideal S100000x6 .f32 :=
  Host.scatterAdd (F := Ideal) scatter_S100000x6_S1600000x1_S1600000x6_1_0_0_1
    (broadcastInDim S100000x6 ![] bcast_S_S100000x6 (constant (F := Ideal) S_ .f32 0x00000000#32)) (dst e)
    (Host.gather gather_S100000x6_S1600000x1_S1600000x6_1_0_n_n_0_1_16 h (src e))

/-- The neighbour sums of a 64-column feature array. -/
def agg64 (e : Edges) (h : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dst e)
    (Host.gather gather_S100000x64_S1600000x1_S1600000x64_1_0_n_n_0_1_164 h (src e))

/-- The first layer's output. -/
def h1 (x : FVec Ideal S100000x6 .f32) (e : Edges) (w1l : FVec Ideal S64x6 .f32) (b1 : FVec Ideal S64 .f32) (w1r : FVec Ideal S64x6 .f32) :
    FVec Ideal S100000x64 .f32 :=
  kLayer (N := 100000) (C := 6) (H := 64) (agg6 e x) x (recip e) (transpose S6x64 [1, 0] w1l transposes_S64x6_S6x64_1_0) (transpose S6x64 [1, 0] w1r transposes_S64x6_S6x64_1_0) (shapeCast S1x64 b1 shapeCasts_S64_S1x64)

/-- A 64-to-64 layer applied to a feature array. -/
def layer64 (e : Edges) (h : FVec Ideal S100000x64 .f32) (wl : FVec Ideal S64x64 .f32) (b : FVec Ideal S64 .f32) (wr : FVec Ideal S64x64 .f32) :
    FVec Ideal S100000x64 .f32 :=
  kLayer (N := 100000) (C := 64) (H := 64) (agg64 e h) h (recip e) (transpose S64x64 [1, 0] wl transposes_S64x64_S64x64_1_0) (transpose S64x64 [1, 0] wr transposes_S64x64_S64x64_1_0) (shapeCast S1x64 b shapeCasts_S64_S1x64)

/-- The whole network: three layers and the linear head. -/
def kNet (x : FVec Ideal S100000x6 .f32) (e : Edges) (w1l : FVec Ideal S64x6 .f32) (b1 : FVec Ideal S64 .f32) (w1r : FVec Ideal S64x6 .f32)
    (w2l : FVec Ideal S64x64 .f32) (b2 : FVec Ideal S64 .f32) (w2r : FVec Ideal S64x64 .f32)
    (w3l : FVec Ideal S64x64 .f32) (b3 : FVec Ideal S64 .f32) (w3r : FVec Ideal S64x64 .f32)
    (fcw : FVec Ideal S3x64 .f32) (fcb : FVec Ideal S3 .f32) : FVec Ideal S100000x3 .f32 :=
  kHead (N := 100000) (C := 64) (H := 3)
    (layer64 e (layer64 e (h1 x e w1l b1 w1r) w2l b2 w2r) w3l b3 w3r) (transpose S64x3 [1, 0] fcw transposes_S3x64_S64x3_1_0) (shapeCast S1x3 fcb shapeCasts_S3_S1x3)

end Cert.KernelIdeal.KVal

end
-- ==== Proof.Fold.lean ====
/-
  The kernel program's result, read back through its four host stretches and four pallas_calls.

  The buffer contents at the boundaries between the program's segments form a fold from the launch memory: a host
  stretch rewrites the buffers its operations write and leaves the rest; a pallas_call rewrites its output array
  and leaves every other buffer.  Reading the result's buffer back through that fold: the last call's output is the
  linear head of the third layer's output (which no later operation writes), that is the layer of the second
  layer's output and its neighbour sums (computed by the stretch before the call from arrays no earlier call
  wrote), and so on down to the argument arrays.  The four calls' closed forms — each output array as the layer,
  or the head, of the arrays the call finds — are taken as hypotheses here.
-/
import proofs.«157071_j31585189495032_1_alg».proof.Proof.Gen.KernelIdeal.Frame
import proofs.«157071_j31585189495032_1_alg».proof.Proof.KDefs
import Idealize.ShloMosaic.Lib.StableHlo.Run

set_option maxRecDepth 16384

noncomputable section

namespace Cert.KernelIdeal.Fold

open Cert.KernelIdeal Cert.KernelIdeal.Gen Cert.KernelIdeal.KVal Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What each host stretch writes, and what it therefore keeps -/

/-- The references the first stretch's operations write. -/
abbrev wr0 : List (Ref sig .tc) := [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24, main_v25]
/-- The references the second stretch's operations write. -/
abbrev wr1 : List (Ref sig .tc) := [main_c_5, main_v27, main_v28, main_c_6, main_v29, main_v30, main_v31, main_v32, main_v33, main_cst_7, main_v34, main_v35, main_v36, main_v37, main_v38, main_v39]
/-- The references the third stretch's operations write. -/
abbrev wr2 : List (Ref sig .tc) := [main_c_8, main_v41, main_v42, main_c_9, main_v43, main_v44, main_v45, main_v46, main_v47, main_cst_10, main_v48, main_v49, main_v50, main_v51, main_v52, main_v53]
/-- The references the fourth stretch's operations write. -/
abbrev wr3 : List (Ref sig .tc) := [main_v55, main_v56]

theorem wr0_sub : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wr1_sub : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wr2_sub : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wr3_sub : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer the first stretch does not write holds its launch contents at the first call's entry. -/
theorem W1_of (c : Dev nD) (r : Ref sig .tc) (h : r ∉ wr0) : W1 m ρ c (Proc.devRef .tc r) = m ((c : Thread nD τ).loc r) :=
  StableHlo.after_of_writes_sub hostOps0 _ wr0_sub h
theorem W3_of (c : Dev nD) (r : Ref sig .tc) (h : r ∉ wr1) : W3 m ρ c (Proc.devRef .tc r) = W2 m ρ c (Proc.devRef .tc r) :=
  StableHlo.after_of_writes_sub hostOps1 _ wr1_sub h
theorem W5_of (c : Dev nD) (r : Ref sig .tc) (h : r ∉ wr2) : W5 m ρ c (Proc.devRef .tc r) = W4 m ρ c (Proc.devRef .tc r) :=
  StableHlo.after_of_writes_sub hostOps2 _ wr2_sub h
theorem W7_of (c : Dev nD) (r : Ref sig .tc) (h : r ∉ wr3) : W7 m ρ c (Proc.devRef .tc r) = W6 m ρ c (Proc.devRef .tc r) :=
  StableHlo.after_of_writes_sub hostOps3 _ wr3_sub h

/-- A buffer that is none of the first call's arrays and that the second stretch does not write holds, at the second
    call's entry, what it held at the first call's entry. -/
theorem W3_carry (c : Dev nD) (r : Ref sig .tc) (h0 : ∀ w, Pipeline.arrRef spec0 w ≠ r) (h1 : r ∉ wr1) :
    W3 m ρ c (Proc.devRef .tc r) = W1 m ρ c (Proc.devRef .tc r) :=
  (W3_of m ρ c r h1).trans (W2_of_ne m ρ c r h0)
/-- … and likewise at the third call's entry. -/
theorem W5_carry (c : Dev nD) (r : Ref sig .tc) (h0 : ∀ w, Pipeline.arrRef spec0 w ≠ r) (h1 : r ∉ wr1)
    (h2 : ∀ w, Pipeline.arrRef spec1 w ≠ r) (h3 : r ∉ wr2) :
    W5 m ρ c (Proc.devRef .tc r) = W1 m ρ c (Proc.devRef .tc r) :=
  (W5_of m ρ c r h3).trans ((W4_of_ne m ρ c r h2).trans (W3_carry m ρ c r h0 h1))
/-- … and at the third call's exit. -/
theorem W6_carry (c : Dev nD) (r : Ref sig .tc) (h0 : ∀ w, Pipeline.arrRef spec0 w ≠ r) (h1 : r ∉ wr1)
    (h2 : ∀ w, Pipeline.arrRef spec1 w ≠ r) (h3 : r ∉ wr2) (h4 : ∀ w, Pipeline.arrRef spec2 w ≠ r) :
    W6 m ρ c (Proc.devRef .tc r) = W1 m ρ c (Proc.devRef .tc r) :=
  (W6_of_ne m ρ c r h4).trans (W5_carry m ρ c r h0 h1 h2 h3)

/-! ## The first stretch: the index rows, the reciprocal column, the first layer's operands -/

theorem W1_v1 (c : Dev nD) : W1 m ρ c (Proc.devRef .tc main_v1) = srcRow (m ((c : Thread nD τ).loc main_arg1)) := by
  show StableHlo.after hostOps0 (W0 m ρ c) (Proc.devRef .tc main_v1) = _
  dsimp only [hostOps0]; after_results; rfl
theorem W1_v3 (c : Dev nD) : W1 m ρ c (Proc.devRef .tc main_v3) = (shapeCast _ (extractStridedSlice S1x1600000 ![1, 0] (m ((c : Thread nD τ).loc main_arg1)) slices_S2x1600000_S1x1600000_1_0) shapeCasts_S1x1600000_S1600000) := by
  show StableHlo.after hostOps0 (W0 m ρ c) (Proc.devRef .tc main_v3) = _
  dsimp only [hostOps0]; after_results; rfl
theorem W1_v12 (c : Dev nD) : W1 m ρ c (Proc.devRef .tc main_v12) = recip (m ((c : Thread nD τ).loc main_arg1)) := by
  show StableHlo.after hostOps0 (W0 m ρ c) (Proc.devRef .tc main_v12) = _
  dsimp only [hostOps0]; after_results; rfl
theorem W1_v22 (c : Dev nD) : W1 m ρ c (Proc.devRef .tc main_v22) = agg6 (m ((c : Thread nD τ).loc main_arg1)) (m ((c : Thread nD τ).loc main_arg0)) := by
  show StableHlo.after hostOps0 (W0 m ρ c) (Proc.devRef .tc main_v22) = _
  dsimp only [hostOps0]; after_results; rfl
theorem W1_v23 (c : Dev nD) : W1 m ρ c (Proc.devRef .tc main_v23) = transpose S6x64 [1, 0] (m ((c : Thread nD τ).loc main_arg2)) transposes_S64x6_S6x64_1_0 := by
  show StableHlo.after hostOps0 (W0 m ρ c) (Proc.devRef .tc main_v23) = _
  dsimp only [hostOps0]; after_results
theorem W1_v24 (c : Dev nD) : W1 m ρ c (Proc.devRef .tc main_v24) = transpose S6x64 [1, 0] (m ((c : Thread nD τ).loc main_arg4)) transposes_S64x6_S6x64_1_0 := by
  show StableHlo.after hostOps0 (W0 m ρ c) (Proc.devRef .tc main_v24) = _
  dsimp only [hostOps0]; after_results
theorem W1_v25 (c : Dev nD) : W1 m ρ c (Proc.devRef .tc main_v25) = shapeCast S1x64 (m ((c : Thread nD τ).loc main_arg3)) shapeCasts_S64_S1x64 := by
  show StableHlo.after hostOps0 (W0 m ρ c) (Proc.devRef .tc main_v25) = _
  dsimp only [hostOps0]; after_results; rfl

/-! ## The layers' outputs, as functions of the arguments -/

/-- The first layer's output. -/
def L1 (c : Dev nD) : FVec Ideal S100000x64 .f32 :=
  h1 (m ((c : Thread nD τ).loc main_arg0)) (m ((c : Thread nD τ).loc main_arg1)) (m ((c : Thread nD τ).loc main_arg2)) (m ((c : Thread nD τ).loc main_arg3)) (m ((c : Thread nD τ).loc main_arg4))
/-- The second layer's output. -/
def L2 (c : Dev nD) : FVec Ideal S100000x64 .f32 :=
  layer64 (m ((c : Thread nD τ).loc main_arg1)) (L1 m c) (m ((c : Thread nD τ).loc main_arg5)) (m ((c : Thread nD τ).loc main_arg6)) (m ((c : Thread nD τ).loc main_arg7))
/-- The third layer's output. -/
def L3 (c : Dev nD) : FVec Ideal S100000x64 .f32 :=
  layer64 (m ((c : Thread nD τ).loc main_arg1)) (L2 m c) (m ((c : Thread nD τ).loc main_arg8)) (m ((c : Thread nD τ).loc main_arg9)) (m ((c : Thread nD τ).loc main_arg10))

/-! ## The first call -/

/-- The reciprocal column is an input of the first call: the call leaves it as it found it. -/
theorem W2_v12 (c : Dev nD) : W2 m ρ c (Proc.devRef .tc main_v12) = recip (m ((c : Thread nD τ).loc main_arg1)) :=
  ((W2_arr m ρ c 2).trans (((dat0 (V1 m ρ) c).arrAt_in 2 rfl _).trans (A_eq0 (V1 m ρ) c 2))).trans (W1_v12 m ρ c)

/-- The first call's output is the first layer of the arguments. -/
theorem W2_v26 (hf0 : ∀ (V : (c : Dev nD) → (b : Ref sig .tc) → Buf (Elt Ideal) ((c : Thread nD τ).loc b)) (c : Dev nD),
      (dat0 (F := Ideal) V c).arrAt 6 cfg0.N = kLayer (N := 100000) (C := 6) (H := 64) (V c main_v22) (V c main_arg0) (V c main_v12) (V c main_v23) (V c main_v24) (V c main_v25)) (c : Dev nD) :
    W2 m ρ c (Proc.devRef .tc main_v26) = L1 m c := by
  refine (W2_arr m ρ c 6).trans ((hf0 (V1 m ρ) c).trans ?_)
  dsimp only [V1]
  rw [W1_v22, W1_v12, W1_v23, W1_v24, W1_v25, W1_of m ρ c main_arg0 (by decide)]
  rfl

/-! ## Arguments and index rows at the later boundaries -/

/-- An argument array holds its launch contents at the second call's entry side (the first call's exit). -/
theorem W2_arg (c : Dev nD) (r : Ref sig .tc) (h0 : ∀ w, Pipeline.arrRef spec0 w ≠ r) (hw : r ∉ wr0) :
    W2 m ρ c (Proc.devRef .tc r) = m ((c : Thread nD τ).loc r) :=
  (W2_of_ne m ρ c r h0).trans (W1_of m ρ c r hw)
/-- … at the second call's exit. -/
theorem W4_arg (c : Dev nD) (r : Ref sig .tc) (h0 : ∀ w, Pipeline.arrRef spec0 w ≠ r) (h1 : r ∉ wr1)
    (h2 : ∀ w, Pipeline.arrRef spec1 w ≠ r) (hw : r ∉ wr0) :
    W4 m ρ c (Proc.devRef .tc r) = m ((c : Thread nD τ).loc r) :=
  (W4_of_ne m ρ c r h2).trans ((W3_carry m ρ c r h0 h1).trans (W1_of m ρ c r hw))
/-- … at the third call's exit. -/
theorem W6_arg (c : Dev nD) (r : Ref sig .tc) (h0 : ∀ w, Pipeline.arrRef spec0 w ≠ r) (h1 : r ∉ wr1)
    (h2 : ∀ w, Pipeline.arrRef spec1 w ≠ r) (h3 : r ∉ wr2) (h4 : ∀ w, Pipeline.arrRef spec2 w ≠ r) (hw : r ∉ wr0) :
    W6 m ρ c (Proc.devRef .tc r) = m ((c : Thread nD τ).loc r) :=
  (W6_carry m ρ c r h0 h1 h2 h3 h4).trans (W1_of m ρ c r hw)

/-! ## The second stretch and the second call -/

/-- The neighbour sums of the first layer's output. -/
theorem W3_v36 (hf0 : ∀ (V : (c : Dev nD) → (b : Ref sig .tc) → Buf (Elt Ideal) ((c : Thread nD τ).loc b)) (c : Dev nD),
      (dat0 (F := Ideal) V c).arrAt 6 cfg0.N = kLayer (N := 100000) (C := 6) (H := 64) (V c main_v22) (V c main_arg0) (V c main_v12) (V c main_v23) (V c main_v24) (V c main_v25)) (c : Dev nD) :
    W3 m ρ c (Proc.devRef .tc main_v36) = agg64 (m ((c : Thread nD τ).loc main_arg1)) (L1 m c) := by
  show StableHlo.after hostOps1 (W2 m ρ c) (Proc.devRef .tc main_v36) = _
  dsimp only [hostOps1]; after_results
  rw [W2_v26 m ρ hf0 c, W2_of_ne m ρ c main_v3 (by decide), W1_v3, W2_of_ne m ρ c main_v1 (by decide), W1_v1]
  rfl
theorem W3_v26 (hf0 : ∀ (V : (c : Dev nD) → (b : Ref sig .tc) → Buf (Elt Ideal) ((c : Thread nD τ).loc b)) (c : Dev nD),
      (dat0 (F := Ideal) V c).arrAt 6 cfg0.N = kLayer (N := 100000) (C := 6) (H := 64) (V c main_v22) (V c main_arg0) (V c main_v12) (V c main_v23) (V c main_v24) (V c main_v25)) (c : Dev nD) :
    W3 m ρ c (Proc.devRef .tc main_v26) = L1 m c :=
  (W3_of m ρ c main_v26 (by decide)).trans (W2_v26 m ρ hf0 c)
theorem W3_v12 (c : Dev nD) : W3 m ρ c (Proc.devRef .tc main_v12) = recip (m ((c : Thread nD τ).loc main_arg1)) :=
  (W3_of m ρ c main_v12 (by decide)).trans (W2_v12 m ρ c)
theorem W3_v37 (c : Dev nD) : W3 m ρ c (Proc.devRef .tc main_v37) = transpose S64x64 [1, 0] (m ((c : Thread nD τ).loc main_arg5)) transposes_S64x64_S64x64_1_0 := by
  show StableHlo.after hostOps1 (W2 m ρ c) (Proc.devRef .tc main_v37) = _
  dsimp only [hostOps1]; after_results
  exact congrArg (fun a => transpose S64x64 [1, 0] a transposes_S64x64_S64x64_1_0) (W2_arg m ρ c main_arg5 (by decide) (by decide))
theorem W3_v38 (c : Dev nD) : W3 m ρ c (Proc.devRef .tc main_v38) = transpose S64x64 [1, 0] (m ((c : Thread nD τ).loc main_arg7)) transposes_S64x64_S64x64_1_0 := by
  show StableHlo.after hostOps1 (W2 m ρ c) (Proc.devRef .tc main_v38) = _
  dsimp only [hostOps1]; after_results
  exact congrArg (fun a => transpose S64x64 [1, 0] a transposes_S64x64_S64x64_1_0) (W2_arg m ρ c main_arg7 (by decide) (by decide))
theorem W3_v39 (c : Dev nD) : W3 m ρ c (Proc.devRef .tc main_v39) = shapeCast S1x64 (m ((c : Thread nD τ).loc main_arg6)) shapeCasts_S64_S1x64 := by
  show StableHlo.after hostOps1 (W2 m ρ c) (Proc.devRef .tc main_v39) = _
  dsimp only [hostOps1]; after_results
  exact congrArg (fun a => shapeCast S1x64 a shapeCasts_S64_S1x64) (W2_arg m ρ c main_arg6 (by decide) (by decide))

/-- The second call's output is the second layer of the arguments. -/
theorem W4_v40 (hf0 : ∀ (V : (c : Dev nD) → (b : Ref sig .tc) → Buf (Elt Ideal) ((c : Thread nD τ).loc b)) (c : Dev nD),
      (dat0 (F := Ideal) V c).arrAt 6 cfg0.N = kLayer (N := 100000) (C := 6) (H := 64) (V c main_v22) (V c main_arg0) (V c main_v12) (V c main_v23) (V c main_v24) (V c main_v25))
    (hf1 : ∀ (V : (c : Dev nD) → (b : Ref sig .tc) → Buf (Elt Ideal) ((c : Thread nD τ).loc b)) (c : Dev nD),
      (dat1 (F := Ideal) V c).arrAt 6 cfg1.N = kLayer (N := 100000) (C := 64) (H := 64) (V c main_v36) (V c main_v26) (V c main_v12) (V c main_v37) (V c main_v38) (V c main_v39)) (c : Dev nD) :
    W4 m ρ c (Proc.devRef .tc main_v40) = L2 m c := by
  refine (W4_arr m ρ c 6).trans ((hf1 (V3 m ρ) c).trans ?_)
  dsimp only [V3]
  rw [W3_v36 m ρ hf0 c, W3_v26 m ρ hf0 c, W3_v12, W3_v37, W3_v38, W3_v39]
  rfl

/-- The reciprocal column is an input of the second call too. -/
theorem W4_v12 (c : Dev nD) : W4 m ρ c (Proc.devRef .tc main_v12) = recip (m ((c : Thread nD τ).loc main_arg1)) :=
  ((W4_arr m ρ c 2).trans (((dat1 (V3 m ρ) c).arrAt_in 2 rfl _).trans (A_eq1 (V3 m ρ) c 2))).trans (W3_v12 m ρ c)

/-! ## The third stretch and the third call -/

theorem W5_v50 (hf0 : ∀ (V : (c : Dev nD) → (b : Ref sig .tc) → Buf (Elt Ideal) ((c : Thread nD τ).loc b)) (c : Dev nD),
      (dat0 (F := Ideal) V c).arrAt 6 cfg0.N = kLayer (N := 100000) (C := 6) (H := 64) (V c main_v22) (V c main_arg0) (V c main_v12) (V c main_v23) (V c main_v24) (V c main_v25))
    (hf1 : ∀ (V : (c : Dev nD) → (b : Ref sig .tc) → Buf (Elt Ideal) ((c : Thread nD τ).loc b)) (c : Dev nD),
      (dat1 (F := Ideal) V c).arrAt 6 cfg1.N = kLayer (N := 100000) (C := 64) (H := 64) (V c main_v36) (V c main_v26) (V c main_v12) (V c main_v37) (V c main_v38) (V c main_v39)) (c : Dev nD) :
    W5 m ρ c (Proc.devRef .tc main_v50) = agg64 (m ((c : Thread nD τ).loc main_arg1)) (L2 m c) := by
  show StableHlo.after hostOps2 (W4 m ρ c) (Proc.devRef .tc main_v50) = _
  dsimp only [hostOps2]; after_results
  rw [W4_v40 m ρ hf0 hf1 c, W4_of_ne m ρ c main_v3 (by decide), W3_carry m ρ c main_v3 (by decide) (by decide), W1_v3,
    W4_of_ne m ρ c main_v1 (by decide), W3_carry m ρ c main_v1 (by decide) (by decide), W1_v1]
  rfl
theorem W5_v40 (hf0 : ∀ (V : (c : Dev nD) → (b : Ref sig .tc) → Buf (Elt Ideal) ((c : Thread nD τ).loc b)) (c : Dev nD),
      (dat0 (F := Ideal) V c).arrAt 6 cfg0.N = kLayer (N := 100000) (C := 6) (H := 64) (V c main_v22) (V c main_arg0) (V c main_v12) (V c main_v23) (V c main_v24) (V c main_v25))
    (hf1 : ∀ (V : (c : Dev nD) → (b : Ref sig .tc) → Buf (Elt Ideal) ((c : Thread nD τ).loc b)) (c : Dev nD),
      (dat1 (F := Ideal) V c).arrAt 6 cfg1.N = kLayer (N := 100000) (C := 64) (H := 64) (V c main_v36) (V c main_v26) (V c main_v12) (V c main_v37) (V c main_v38) (V c main_v39)) (c : Dev nD) :
    W5 m ρ c (Proc.devRef .tc main_v40) = L2 m c :=
  (W5_of m ρ c main_v40 (by decide)).trans (W4_v40 m ρ hf0 hf1 c)
theorem W5_v12 (c : Dev nD) : W5 m ρ c (Proc.devRef .tc main_v12) = recip (m ((c : Thread nD τ).loc main_arg1)) :=
  (W5_of m ρ c main_v12 (by decide)).trans (W4_v12 m ρ c)
theorem W5_v51 (c : Dev nD) : W5 m ρ c (Proc.devRef .tc main_v51) = transpose S64x64 [1, 0] (m ((c : Thread nD τ).loc main_arg8)) transposes_S64x64_S64x64_1_0 := by
  show StableHlo.after hostOps2 (W4 m ρ c) (Proc.devRef .tc main_v51) = _
  dsimp only [hostOps2]; after_results
  exact congrArg (fun a => transpose S64x64 [1, 0] a transposes_S64x64_S64x64_1_0) (W4_arg m ρ c main_arg8 (by decide) (by decide) (by decide) (by decide))
theorem W5_v52 (c : Dev nD) : W5 m ρ c (Proc.devRef .tc main_v52) = transpose S64x64 [1, 0] (m ((c : Thread nD τ).loc main_arg10)) transposes_S64x64_S64x64_1_0 := by
  show StableHlo.after hostOps2 (W4 m ρ c) (Proc.devRef .tc main_v52) = _
  dsimp only [hostOps2]; after_results
  exact congrArg (fun a => transpose S64x64 [1, 0] a transposes_S64x64_S64x64_1_0) (W4_arg m ρ c main_arg10 (by decide) (by decide) (by decide) (by decide))
theorem W5_v53 (c : Dev nD) : W5 m ρ c (Proc.devRef .tc main_v53) = shapeCast S1x64 (m ((c : Thread nD τ).loc main_arg9)) shapeCasts_S64_S1x64 := by
  show StableHlo.after hostOps2 (W4 m ρ c) (Proc.devRef .tc main_v53) = _
  dsimp only [hostOps2]; after_results
  exact congrArg (fun a => shapeCast S1x64 a shapeCasts_S64_S1x64) (W4_arg m ρ c main_arg9 (by decide) (by decide) (by decide) (by decide))

/-- The third call's output is the third layer of the arguments. -/
theorem W6_v54 (hf0 : ∀ (V : (c : Dev nD) → (b : Ref sig .tc) → Buf (Elt Ideal) ((c : Thread nD τ).loc b)) (c : Dev nD),
      (dat0 (F := Ideal) V c).arrAt 6 cfg0.N = kLayer (N := 100000) (C := 6) (H := 64) (V c main_v22) (V c main_arg0) (V c main_v12) (V c main_v23) (V c main_v24) (V c main_v25))
    (hf1 : ∀ (V : (c : Dev nD) → (b : Ref sig .tc) → Buf (Elt Ideal) ((c : Thread nD τ).loc b)) (c : Dev nD),
      (dat1 (F := Ideal) V c).arrAt 6 cfg1.N = kLayer (N := 100000) (C := 64) (H := 64) (V c main_v36) (V c main_v26) (V c main_v12) (V c main_v37) (V c main_v38) (V c main_v39))
    (hf2 : ∀ (V : (c : Dev nD) → (b : Ref sig .tc) → Buf (Elt Ideal) ((c : Thread nD τ).loc b)) (c : Dev nD),
      (dat2 (F := Ideal) V c).arrAt 6 cfg2.N = kLayer (N := 100000) (C := 64) (H := 64) (V c main_v50) (V c main_v40) (V c main_v12) (V c main_v51) (V c main_v52) (V c main_v53)) (c : Dev nD) :
    W6 m ρ c (Proc.devRef .tc main_v54) = L3 m c := by
  refine (W6_arr m ρ c 6).trans ((hf2 (V5 m ρ) c).trans ?_)
  dsimp only [V5]
  rw [W5_v50 m ρ hf0 hf1 c, W5_v40 m ρ hf0 hf1 c, W5_v12, W5_v51, W5_v52, W5_v53]
  rfl

/-! ## The last stretch and the last call -/

theorem W7_v54 (hf0 : ∀ (V : (c : Dev nD) → (b : Ref sig .tc) → Buf (Elt Ideal) ((c : Thread nD τ).loc b)) (c : Dev nD),
      (dat0 (F := Ideal) V c).arrAt 6 cfg0.N = kLayer (N := 100000) (C := 6) (H := 64) (V c main_v22) (V c main_arg0) (V c main_v12) (V c main_v23) (V c main_v24) (V c main_v25))
    (hf1 : ∀ (V : (c : Dev nD) → (b : Ref sig .tc) → Buf (Elt Ideal) ((c : Thread nD τ).loc b)) (c : Dev nD),
      (dat1 (F := Ideal) V c).arrAt 6 cfg1.N = kLayer (N := 100000) (C := 64) (H := 64) (V c main_v36) (V c main_v26) (V c main_v12) (V c main_v37) (V c main_v38) (V c main_v39))
    (hf2 : ∀ (V : (c : Dev nD) → (b : Ref sig .tc) → Buf (Elt Ideal) ((c : Thread nD τ).loc b)) (c : Dev nD),
      (dat2 (F := Ideal) V c).arrAt 6 cfg2.N = kLayer (N := 100000) (C := 64) (H := 64) (V c main_v50) (V c main_v40) (V c main_v12) (V c main_v51) (V c main_v52) (V c main_v53)) (c : Dev nD) :
    W7 m ρ c (Proc.devRef .tc main_v54) = L3 m c :=
  (W7_of m ρ c main_v54 (by decide)).trans (W6_v54 m ρ hf0 hf1 hf2 c)
theorem W7_v55 (c : Dev nD) : W7 m ρ c (Proc.devRef .tc main_v55) = transpose S64x3 [1, 0] (m ((c : Thread nD τ).loc main_arg11)) transposes_S3x64_S64x3_1_0 := by
  show StableHlo.after hostOps3 (W6 m ρ c) (Proc.devRef .tc main_v55) = _
  dsimp only [hostOps3]; after_results
  exact congrArg (fun a => transpose S64x3 [1, 0] a transposes_S3x64_S64x3_1_0)
    (W6_arg m ρ c main_arg11 (by decide) (by decide) (by decide) (by decide) (by decide) (by decide))
theorem W7_v56 (c : Dev nD) : W7 m ρ c (Proc.devRef .tc main_v56) = shapeCast S1x3 (m ((c : Thread nD τ).loc main_arg12)) shapeCasts_S3_S1x3 := by
  show StableHlo.after hostOps3 (W6 m ρ c) (Proc.devRef .tc main_v56) = _
  dsimp only [hostOps3]; after_results
  exact congrArg (fun a => shapeCast S1x3 a shapeCasts_S3_S1x3)
    (W6_arg m ρ c main_arg12 (by decide) (by decide) (by decide) (by decide) (by decide) (by decide))

/-- THE RESULT: the last boundary's contents of the result's buffer are the whole network of the arguments. -/
theorem result_eq (hf0 : ∀ (V : (c : Dev nD) → (b : Ref sig .tc) → Buf (Elt Ideal) ((c : Thread nD τ).loc b)) (c : Dev nD),
      (dat0 (F := Ideal) V c).arrAt 6 cfg0.N = kLayer (N := 100000) (C := 6) (H := 64) (V c main_v22) (V c main_arg0) (V c main_v12) (V c main_v23) (V c main_v24) (V c main_v25))
    (hf1 : ∀ (V : (c : Dev nD) → (b : Ref sig .tc) → Buf (Elt Ideal) ((c : Thread nD τ).loc b)) (c : Dev nD),
      (dat1 (F := Ideal) V c).arrAt 6 cfg1.N = kLayer (N := 100000) (C := 64) (H := 64) (V c main_v36) (V c main_v26) (V c main_v12) (V c main_v37) (V c main_v38) (V c main_v39))
    (hf2 : ∀ (V : (c : Dev nD) → (b : Ref sig .tc) → Buf (Elt Ideal) ((c : Thread nD τ).loc b)) (c : Dev nD),
      (dat2 (F := Ideal) V c).arrAt 6 cfg2.N = kLayer (N := 100000) (C := 64) (H := 64) (V c main_v50) (V c main_v40) (V c main_v12) (V c main_v51) (V c main_v52) (V c main_v53))
    (hf3 : ∀ (V : (c : Dev nD) → (b : Ref sig .tc) → Buf (Elt Ideal) ((c : Thread nD τ).loc b)) (c : Dev nD),
      (dat3 (F := Ideal) V c).arrAt 3 cfg3.N = kHead (N := 100000) (C := 64) (H := 3) (V c main_v54) (V c main_v55) (V c main_v56)) (c : Dev nD) :
    W8 m ρ c (Proc.devRef .tc main_v57)
      = kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 3).trans ((hf3 (V7 m ρ) c).trans ?_)
  dsimp only [V7]
  rw [W7_v54 m ρ hf0 hf1 hf2 c, W7_v55, W7_v56]
  rfl

end Cert.KernelIdeal.Fold

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.Region0.lean ====
/-
  The first pallas_call's output array as a whole: the 6-to-64 layer of the arrays it is called with.

  The grid has twenty points. At point t the body sees rows 5000 t .. 5000 t + 4999 of the neighbour sums, of the
  features and of the reciprocal column, and the two weight matrices and the bias row whole; it stores the layer of
  those rows as rows 5000 t .. 5000 t + 4999 of the output. An entry of the layer depends on one row of the row-blocked
  arrays only, so the block the body stores is the block of the layer of the whole arrays; the twenty blocks tile the
  100000 rows (row r lies in block r / 5000), so the output array ends as that layer.
-/
import proofs.«157071_j31585189495032_1_alg».proof.Proof.Gen.KernelIdeal.Frame
import proofs.«157071_j31585189495032_1_alg».proof.Proof.Spec
import proofs.«157071_j31585189495032_1_alg».proof.Proof.LibDot
import proofs.«157071_j31585189495032_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.Sage

/-! ## The stored block, entry by entry -/

/-- Entry (p, q) of the block the body stores: the layer's entry of the loaded blocks. The casts of a shape to itself
    and the changes of float format are the identity; the reciprocal column is laid across the six feature columns and
    the bias row down the rows; each product into the zero accumulator is the plain sum over the six features. -/
theorem layer0_block_apply (x0 : Vec Ideal S5000x6 .f32) (x2 : Vec Ideal S5000x1 .f32) (x7 : Vec Ideal S5000x6 .f32)
    (x9 x12 : Vec Ideal S6x64 .f32) (x18 : Vec Ideal S1x64 .f32) (p : Fin 5000) (q : Fin 64) :
    k0_pay1 x0 x2 x7 x9 x12 x18 (ix2 p q) = kLayerAt (N := 5000) (C := 6) (H := 64) x0 x7 x2 x9 x12 x18 p q := by
  unfold k0_pay1 kLayerAt
  simp only [shapeCast_self]
  refine (maximumf_apply _ _ _).trans ?_
  refine congrArg₂ max ?_ (show _ = _ from Ideal.ofBits_zero_f32)
  refine (addf_apply _ _ _).trans ?_
  refine congrArg₂ (· + ·) ?_ (broadcastTo_1b_ab_apply x18 broadcasts_S1x64_S5000x64 p q)
  refine (addf_apply _ _ _).trans ?_
  refine congrArg₂ (· + ·) ?_ ?_
  · refine (Cert.LibDot.matmul_zero_plain_apply dot_S5000x6_S6x64_S5000x64_1_0_0_1_n_n rfl rfl rfl rfl rfl rfl none _ _ (ix2 p q)).trans ?_
    refine Finset.sum_congr rfl fun k _ => ?_
    show (x0 (ix2 p k) * broadcastTo S5000x6 x2 broadcasts_S5000x1_S5000x6 (ix2 p k)) * x9 (ix2 k q) = _
    rw [Cert.LibColumn.broadcastTo_a1_ab_apply x2 broadcasts_S5000x1_S5000x6 p k]
  · exact Cert.LibDot.matmul_zero_plain_apply dot_S5000x6_S6x64_S5000x64_1_0_0_1_n_n rfl rfl rfl rfl rfl rfl none _ _ (ix2 p q)

/-- The layer's entry of the blocks, once each block's entries are entries of whole arrays: row p of the row blocks is
    row P of the arrays, and the weights and the bias are read whole. -/
theorem layer0_entry_of_blocks {S x : Mat 100000 6} {inv : Mat 100000 1} {wl wr : Mat 6 64} {b : Mat 1 64}
    (x0 : Vec Ideal S5000x6 .f32) (x2 : Vec Ideal S5000x1 .f32) (x7 : Vec Ideal S5000x6 .f32)
    (x9 x12 : Vec Ideal S6x64 .f32) (x18 : Vec Ideal S1x64 .f32) (p : Fin 5000) (q : Fin 64) (P : Fin 100000)
    (h0 : ∀ k : Fin 6, x0 (ix2 p k) = S (ix2 P k)) (h7 : ∀ k : Fin 6, x7 (ix2 p k) = x (ix2 P k))
    (h2 : x2 (ix2 p (0 : Fin 1)) = inv (ix2 P (0 : Fin 1)))
    (h9 : ∀ k : Fin 6, x9 (ix2 k q) = wl (ix2 k q)) (h12 : ∀ k : Fin 6, x12 (ix2 k q) = wr (ix2 k q))
    (h18 : x18 (ix2 (0 : Fin 1) q) = b (ix2 (0 : Fin 1) q)) :
    k0_pay1 x0 x2 x7 x9 x12 x18 (ix2 p q) = kLayerAt S x inv wl wr b P q := by
  rw [layer0_block_apply]
  unfold kLayerAt
  simp only [h0, h7, h2, h9, h12, h18]

/-! ## The blocks as parts of the arrays -/

variable (V : (c : Dev nD) → (b : Ref sig .tc) → Buf (Elt Ideal) ((c : Thread nD τ).loc b))

theorem zero_offsets0 : (![0, 0] : Fin 2 → Nat) = fun _ => 0 := funext fun a => by fin_cases a <;> rfl

/-- The index maps over the twenty grid points: the three row-blocked inputs and the output take block t of the rows at
    point t, in the one block of columns; the weights and the bias are one block each. -/
theorem index_maps0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Block t of the neighbour sums, at (p, k), is the array at row 5000 t + p. -/
theorem sums_block0_apply (c : Dev nD) (t : Fin cfg0.N) (p : Fin 5000) (k : Fin 6) (P : Fin 100000)
    (hP : P.val = t.val * 5000 + p.val) :
    (iblk0 (F := Ideal) V c 0 t : Vec Ideal S5000x6 .f32) (ix2 p k) = (V c main_v22 : S100000x6.Idx → EReal) (ix2 P k) := by
  obtain ⟨⟨e0, e1⟩, -⟩ := index_maps0 t
  unfold iblk0
  rw [View.read_apply]
  show V c main_v22 _ = V c main_v22 _
  congr 1
  funext a
  apply Fin.ext
  match a with
  | ⟨0, _⟩ => show win0_0.index t 0 * 5000 + 1 * p.val = P.val; rw [e0, hP]; omega
  | ⟨1, _⟩ => show win0_0.index t 1 * 6 + 1 * k.val = k.val; rw [e1]; omega

/-- Block t of the features, at (p, k), is the array at row 5000 t + p. -/
theorem feats_block0_apply (c : Dev nD) (t : Fin cfg0.N) (p : Fin 5000) (k : Fin 6) (P : Fin 100000)
    (hP : P.val = t.val * 5000 + p.val) :
    (iblk0 (F := Ideal) V c 1 t : Vec Ideal S5000x6 .f32) (ix2 p k) = (V c main_arg0 : S100000x6.Idx → EReal) (ix2 P k) := by
  obtain ⟨-, ⟨e0, e1⟩, -⟩ := index_maps0 t
  unfold iblk0
  rw [View.read_apply]
  show V c main_arg0 _ = V c main_arg0 _
  congr 1
  funext a
  apply Fin.ext
  match a with
  | ⟨0, _⟩ => show win0_1.index t 0 * 5000 + 1 * p.val = P.val; rw [e0, hP]; omega
  | ⟨1, _⟩ => show win0_1.index t 1 * 6 + 1 * k.val = k.val; rw [e1]; omega

/-- Block t of the reciprocal column, at (p, 0), is the column at row 5000 t + p. -/
theorem recip_block0_apply (c : Dev nD) (t : Fin cfg0.N) (p : Fin 5000) (P : Fin 100000)
    (hP : P.val = t.val * 5000 + p.val) :
    (iblk0 (F := Ideal) V c 2 t : Vec Ideal S5000x1 .f32) (ix2 p (0 : Fin 1))
      = (V c main_v12 : S100000x1.Idx → EReal) (ix2 P (0 : Fin 1)) := by
  obtain ⟨-, -, ⟨e0, e1⟩, -⟩ := index_maps0 t
  unfold iblk0
  rw [View.read_apply]
  show V c main_v12 _ = V c main_v12 _
  congr 1
  funext a
  apply Fin.ext
  match a with
  | ⟨0, _⟩ => show win0_2.index t 0 * 5000 + 1 * p.val = P.val; rw [e0, hP]; omega
  | ⟨1, _⟩ => show win0_2.index t 1 * 1 + 1 * 0 = 0; rw [e1]

/-- The left weights' one block is the whole matrix. -/
theorem wl_block0_apply (c : Dev nD) (t : Fin cfg0.N) (k : Fin 6) (q : Fin 64) :
    (iblk0 (F := Ideal) V c 3 t : Vec Ideal S6x64 .f32) (ix2 k q) = (V c main_v23 : S6x64.Idx → EReal) (ix2 k q) := by
  obtain ⟨-, -, -, ⟨e0, e1⟩, -⟩ := index_maps0 t
  unfold iblk0
  rw [View.read_apply]
  show V c main_v23 _ = V c main_v23 _
  congr 1
  funext a
  apply Fin.ext
  match a with
  | ⟨0, _⟩ => show win0_3.index t 0 * 6 + 1 * k.val = k.val; rw [e0]; omega
  | ⟨1, _⟩ => show win0_3.index t 1 * 64 + 1 * q.val = q.val; rw [e1]; omega

/-- The right weights' one block is the whole matrix. -/
theorem wr_block0_apply (c : Dev nD) (t : Fin cfg0.N) (k : Fin 6) (q : Fin 64) :
    (iblk0 (F := Ideal) V c 4 t : Vec Ideal S6x64 .f32) (ix2 k q) = (V c main_v24 : S6x64.Idx → EReal) (ix2 k q) := by
  obtain ⟨-, -, -, -, ⟨e0, e1⟩, -⟩ := index_maps0 t
  unfold iblk0
  rw [View.read_apply]
  show V c main_v24 _ = V c main_v24 _
  congr 1
  funext a
  apply Fin.ext
  match a with
  | ⟨0, _⟩ => show win0_4.index t 0 * 6 + 1 * k.val = k.val; rw [e0]; omega
  | ⟨1, _⟩ => show win0_4.index t 1 * 64 + 1 * q.val = q.val; rw [e1]; omega

/-- The bias row's one block is the whole row. -/
theorem bias_block0_apply (c : Dev nD) (t : Fin cfg0.N) (q : Fin 64) :
    (iblk0 (F := Ideal) V c 5 t : Vec Ideal S1x64 .f32) (ix2 (0 : Fin 1) q)
      = (V c main_v25 : S1x64.Idx → EReal) (ix2 (0 : Fin 1) q) := by
  obtain ⟨-, -, -, -, -, ⟨e0, e1⟩, -⟩ := index_maps0 t
  unfold iblk0
  rw [View.read_apply]
  show V c main_v25 _ = V c main_v25 _
  congr 1
  funext a
  apply Fin.ext
  match a with
  | ⟨0, _⟩ => show win0_5.index t 0 * 1 + 1 * 0 = 0; rw [e0]
  | ⟨1, _⟩ => show win0_5.index t 1 * 64 + 1 * q.val = q.val; rw [e1]; omega

/-- Entry (p, q) of the output's block t sits at row 5000 t + p, column q of the output array. -/
theorem out_block0_emb (t : Fin cfg0.N) (p : Fin 5000) (q : Fin 64) (P : Fin 100000)
    (hP : P.val = t.val * 5000 + p.val) :
    ((cfg0.win 6).blk t).view.emb (ix2 p q) = (ix2 P q : S100000x64.Idx) := by
  obtain ⟨-, -, -, -, -, -, e0, e1⟩ := index_maps0 t
  funext a
  apply Fin.ext
  match a with
  | ⟨0, _⟩ => show win0_6.index t 0 * 5000 + 1 * p.val = P.val; rw [e0, hP]; omega
  | ⟨1, _⟩ => show win0_6.index t 1 * 64 + 1 * q.val = q.val; rw [e1]; omega

/-! ## What a point writes back, and the whole array -/

/-- What point t writes back is block t of the layer of the arrays the call finds. -/
theorem flushed0_eq (c : Dev nD) (t : Fin cfg0.N) :
    (dat0 (F := Ideal) V c).flushed 6 t = ((cfg0.win 6).blk t).view.read (Elt Ideal)
      (kLayer (N := 100000) (C := 6) (H := 64) (V c main_v22) (V c main_arg0) (V c main_v12) (V c main_v23) (V c main_v24) (V c main_v25)) := by
  show (cfg0.win 6).cut (grid0.coords t) ((dat0 V c).after 6 t) = _
  rw [after0_6]
  unfold out0_6
  rw [View.canon_unit_zero zero_offsets0]
  simp only [View.ld_unit_zero (S := S5000x6) zero_offsets0, View.ld_unit_zero (S := S5000x1) zero_offsets0,
    View.ld_unit_zero (S := S6x64) zero_offsets0, View.ld_unit_zero (S := S1x64) zero_offsets0]
  funext j
  obtain ⟨p, q, rfl⟩ : ∃ (p : Fin 5000) (q : Fin 64), j = ix2 p q := ⟨j 0, j 1, eq_ix2 j⟩
  have hN : cfg0.N = 20 := N_0
  have ht : t.val < cfg0.N := t.isLt
  obtain ⟨P, hP⟩ : ∃ P : Fin 100000, P.val = t.val * 5000 + p.val :=
    ⟨⟨t.val * 5000 + p.val, by have := p.isLt; omega⟩, rfl⟩
  show k0_pay1 (iblk0 V c 0 t) (iblk0 V c 2 t) (iblk0 V c 1 t) (iblk0 V c 3 t) (iblk0 V c 4 t) (iblk0 V c 5 t) (ix2 p q)
    = kLayer (N := 100000) (C := 6) (H := 64) (V c main_v22) (V c main_arg0) (V c main_v12) (V c main_v23) (V c main_v24) (V c main_v25)
        (((cfg0.win 6).blk t).view.emb (ix2 p q))
  rw [out_block0_emb t p q P hP]
  exact layer0_entry_of_blocks (iblk0 V c 0 t) (iblk0 V c 2 t) (iblk0 V c 1 t) (iblk0 V c 3 t) (iblk0 V c 4 t) (iblk0 V c 5 t) p q P
    (fun k => sums_block0_apply V c t p k P hP) (fun k => feats_block0_apply V c t p k P hP)
    (recip_block0_apply V c t p P hP) (fun k => wl_block0_apply V c t k q) (fun k => wr_block0_apply V c t k q)
    (bias_block0_apply V c t q)

/-- An index of the output array is in point t's block iff each coordinate is in the block's range on its axis. -/
theorem mem_out_block0 (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v26).slice (win0_6.rect t)).set ↔ _
  rw [View.set_slice_whole, Rect.mem_set_unit]
  exact Iff.rfl

/-- The twenty blocks tile the array: row r is in the block of point r / 5000, and every point writes back. -/
theorem out_cover0 (i : S100000x64.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 64 := (i 1).isLt
  obtain ⟨t, ht⟩ : ∃ t : Fin cfg0.N, t.val = (i 0).val / 5000 := ⟨⟨(i 0).val / 5000, by omega⟩, rfl⟩
  obtain ⟨-, -, -, -, -, -, e0, e1⟩ := index_maps0 t
  refine ⟨t, flush0_6 t, ?_⟩
  rw [mem_out_block0]
  intro a
  match a with
  | ⟨0, _⟩ =>
    show win0_6.index t 0 * 5000 ≤ (i 0).val ∧ (i 0).val < win0_6.index t 0 * 5000 + 5000
    rw [e0, ht]; omega
  | ⟨1, _⟩ =>
    show win0_6.index t 1 * 64 ≤ (i 1).val ∧ (i 1).val < win0_6.index t 1 * 64 + 64
    rw [e1]; omega

/-- The output array of pallas_call 0 after its grid has run, from the arrays the call finds: the layer of Spec.lean,
    entry by entry (each block of 5000 rows is the layer of those rows, and the twenty blocks tile the array). -/
theorem final0 (c : Dev nD) :
    (dat0 (F := Ideal) V c).arrAt 6 cfg0.N
      = kLayer (N := 100000) (C := 6) (H := 64) (V c main_v22) (V c main_arg0) (V c main_v12) (V c main_v23) (V c main_v24) (V c main_v25) :=
  (dat0 (F := Ideal) V c).arrAt_eq_of_cover 6
    (kLayer (N := 100000) (C := 6) (H := 64) (V c main_v22) (V c main_arg0) (V c main_v12) (V c main_v23) (V c main_v24) (V c main_v25))
    (fun t _ => flushed0_eq V c t) out_cover0

end Cert.KernelIdeal.RegionValue

end
-- ==== Proof.Region1.lean ====
/-
  The second pallas_call's output array as a whole: the 64-to-64 layer of the arrays it is called with.

  The grid has twenty points. At point t the body sees rows 5000 t .. 5000 t + 4999 of the neighbour sums, of the
  features and of the reciprocal column, and the two weight matrices and the bias row whole; it stores the layer of
  those rows as rows 5000 t .. 5000 t + 4999 of the output. An entry of the layer depends on one row of the row-blocked
  arrays only, so the block the body stores is the block of the layer of the whole arrays; the twenty blocks tile the
  100000 rows (row r lies in block r / 5000), so the output array ends as that layer.
-/
import proofs.«157071_j31585189495032_1_alg».proof.Proof.Gen.KernelIdeal.Frame
import proofs.«157071_j31585189495032_1_alg».proof.Proof.Spec
import proofs.«157071_j31585189495032_1_alg».proof.Proof.LibDot
import proofs.«157071_j31585189495032_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.Sage

/-! ## The stored block, entry by entry -/

/-- Entry (p, q) of the block the body stores: the layer's entry of the loaded blocks. The casts of a shape to itself
    and the changes of float format are the identity; the reciprocal column is laid across the sixty-four feature columns and
    the bias row down the rows; each product into the zero accumulator is the plain sum over the sixty-four features. -/
theorem layer1_block_apply (x0 : Vec Ideal S5000x64 .f32) (x2 : Vec Ideal S5000x1 .f32) (x7 : Vec Ideal S5000x64 .f32)
    (x9 x12 : Vec Ideal S64x64 .f32) (x18 : Vec Ideal S1x64 .f32) (p : Fin 5000) (q : Fin 64) :
    k1_pay1 x0 x2 x7 x9 x12 x18 (ix2 p q) = kLayerAt (N := 5000) (C := 64) (H := 64) x0 x7 x2 x9 x12 x18 p q := by
  unfold k1_pay1 kLayerAt
  simp only [shapeCast_self]
  refine (maximumf_apply _ _ _).trans ?_
  refine congrArg₂ max ?_ (show _ = _ from Ideal.ofBits_zero_f32)
  refine (addf_apply _ _ _).trans ?_
  refine congrArg₂ (· + ·) ?_ (broadcastTo_1b_ab_apply x18 broadcasts_S1x64_S5000x64 p q)
  refine (addf_apply _ _ _).trans ?_
  refine congrArg₂ (· + ·) ?_ ?_
  · refine (Cert.LibDot.matmul_zero_plain_apply dot_S5000x64_S64x64_S5000x64_1_0_0_1_n_n rfl rfl rfl rfl rfl rfl none _ _ (ix2 p q)).trans ?_
    refine Finset.sum_congr rfl fun k _ => ?_
    show (x0 (ix2 p k) * broadcastTo S5000x64 x2 broadcasts_S5000x1_S5000x64 (ix2 p k)) * x9 (ix2 k q) = _
    rw [Cert.LibColumn.broadcastTo_a1_ab_apply x2 broadcasts_S5000x1_S5000x64 p k]
  · exact Cert.LibDot.matmul_zero_plain_apply dot_S5000x64_S64x64_S5000x64_1_0_0_1_n_n rfl rfl rfl rfl rfl rfl none _ _ (ix2 p q)

/-- The layer's entry of the blocks, once each block's entries are entries of whole arrays: row p of the row blocks is
    row P of the arrays, and the weights and the bias are read whole. -/
theorem layer1_entry_of_blocks {S x : Mat 100000 64} {inv : Mat 100000 1} {wl wr : Mat 64 64} {b : Mat 1 64}
    (x0 : Vec Ideal S5000x64 .f32) (x2 : Vec Ideal S5000x1 .f32) (x7 : Vec Ideal S5000x64 .f32)
    (x9 x12 : Vec Ideal S64x64 .f32) (x18 : Vec Ideal S1x64 .f32) (p : Fin 5000) (q : Fin 64) (P : Fin 100000)
    (h0 : ∀ k : Fin 64, x0 (ix2 p k) = S (ix2 P k)) (h7 : ∀ k : Fin 64, x7 (ix2 p k) = x (ix2 P k))
    (h2 : x2 (ix2 p (0 : Fin 1)) = inv (ix2 P (0 : Fin 1)))
    (h9 : ∀ k : Fin 64, x9 (ix2 k q) = wl (ix2 k q)) (h12 : ∀ k : Fin 64, x12 (ix2 k q) = wr (ix2 k q))
    (h18 : x18 (ix2 (0 : Fin 1) q) = b (ix2 (0 : Fin 1) q)) :
    k1_pay1 x0 x2 x7 x9 x12 x18 (ix2 p q) = kLayerAt S x inv wl wr b P q := by
  rw [layer1_block_apply]
  unfold kLayerAt
  simp only [h0, h7, h2, h9, h12, h18]

/-! ## The blocks as parts of the arrays -/

variable (V : (c : Dev nD) → (b : Ref sig .tc) → Buf (Elt Ideal) ((c : Thread nD τ).loc b))

theorem zero_offsets1 : (![0, 0] : Fin 2 → Nat) = fun _ => 0 := funext fun a => by fin_cases a <;> rfl

/-- The index maps over the twenty grid points: the three row-blocked inputs and the output take block t of the rows at
    point t, in the one block of columns; the weights and the bias are one block each. -/
theorem index_maps1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Block t of the neighbour sums, at (p, k), is the array at row 5000 t + p. -/
theorem sums_block1_apply (c : Dev nD) (t : Fin cfg1.N) (p : Fin 5000) (k : Fin 64) (P : Fin 100000)
    (hP : P.val = t.val * 5000 + p.val) :
    (iblk1 (F := Ideal) V c 0 t : Vec Ideal S5000x64 .f32) (ix2 p k) = (V c main_v36 : S100000x64.Idx → EReal) (ix2 P k) := by
  obtain ⟨⟨e0, e1⟩, -⟩ := index_maps1 t
  unfold iblk1
  rw [View.read_apply]
  show V c main_v36 _ = V c main_v36 _
  congr 1
  funext a
  apply Fin.ext
  match a with
  | ⟨0, _⟩ => show win1_0.index t 0 * 5000 + 1 * p.val = P.val; rw [e0, hP]; omega
  | ⟨1, _⟩ => show win1_0.index t 1 * 64 + 1 * k.val = k.val; rw [e1]; omega

/-- Block t of the features, at (p, k), is the array at row 5000 t + p. -/
theorem feats_block1_apply (c : Dev nD) (t : Fin cfg1.N) (p : Fin 5000) (k : Fin 64) (P : Fin 100000)
    (hP : P.val = t.val * 5000 + p.val) :
    (iblk1 (F := Ideal) V c 1 t : Vec Ideal S5000x64 .f32) (ix2 p k) = (V c main_v26 : S100000x64.Idx → EReal) (ix2 P k) := by
  obtain ⟨-, ⟨e0, e1⟩, -⟩ := index_maps1 t
  unfold iblk1
  rw [View.read_apply]
  show V c main_v26 _ = V c main_v26 _
  congr 1
  funext a
  apply Fin.ext
  match a with
  | ⟨0, _⟩ => show win1_1.index t 0 * 5000 + 1 * p.val = P.val; rw [e0, hP]; omega
  | ⟨1, _⟩ => show win1_1.index t 1 * 64 + 1 * k.val = k.val; rw [e1]; omega

/-- Block t of the reciprocal column, at (p, 0), is the column at row 5000 t + p. -/
theorem recip_block1_apply (c : Dev nD) (t : Fin cfg1.N) (p : Fin 5000) (P : Fin 100000)
    (hP : P.val = t.val * 5000 + p.val) :
    (iblk1 (F := Ideal) V c 2 t : Vec Ideal S5000x1 .f32) (ix2 p (0 : Fin 1))
      = (V c main_v12 : S100000x1.Idx → EReal) (ix2 P (0 : Fin 1)) := by
  obtain ⟨-, -, ⟨e0, e1⟩, -⟩ := index_maps1 t
  unfold iblk1
  rw [View.read_apply]
  show V c main_v12 _ = V c main_v12 _
  congr 1
  funext a
  apply Fin.ext
  match a with
  | ⟨0, _⟩ => show win1_2.index t 0 * 5000 + 1 * p.val = P.val; rw [e0, hP]; omega
  | ⟨1, _⟩ => show win1_2.index t 1 * 1 + 1 * 0 = 0; rw [e1]

/-- The left weights' one block is the whole matrix. -/
theorem wl_block1_apply (c : Dev nD) (t : Fin cfg1.N) (k : Fin 64) (q : Fin 64) :
    (iblk1 (F := Ideal) V c 3 t : Vec Ideal S64x64 .f32) (ix2 k q) = (V c main_v37 : S64x64.Idx → EReal) (ix2 k q) := by
  obtain ⟨-, -, -, ⟨e0, e1⟩, -⟩ := index_maps1 t
  unfold iblk1
  rw [View.read_apply]
  show V c main_v37 _ = V c main_v37 _
  congr 1
  funext a
  apply Fin.ext
  match a with
  | ⟨0, _⟩ => show win1_3.index t 0 * 64 + 1 * k.val = k.val; rw [e0]; omega
  | ⟨1, _⟩ => show win1_3.index t 1 * 64 + 1 * q.val = q.val; rw [e1]; omega

/-- The right weights' one block is the whole matrix. -/
theorem wr_block1_apply (c : Dev nD) (t : Fin cfg1.N) (k : Fin 64) (q : Fin 64) :
    (iblk1 (F := Ideal) V c 4 t : Vec Ideal S64x64 .f32) (ix2 k q) = (V c main_v38 : S64x64.Idx → EReal) (ix2 k q) := by
  obtain ⟨-, -, -, -, ⟨e0, e1⟩, -⟩ := index_maps1 t
  unfold iblk1
  rw [View.read_apply]
  show V c main_v38 _ = V c main_v38 _
  congr 1
  funext a
  apply Fin.ext
  match a with
  | ⟨0, _⟩ => show win1_4.index t 0 * 64 + 1 * k.val = k.val; rw [e0]; omega
  | ⟨1, _⟩ => show win1_4.index t 1 * 64 + 1 * q.val = q.val; rw [e1]; omega

/-- The bias row's one block is the whole row. -/
theorem bias_block1_apply (c : Dev nD) (t : Fin cfg1.N) (q : Fin 64) :
    (iblk1 (F := Ideal) V c 5 t : Vec Ideal S1x64 .f32) (ix2 (0 : Fin 1) q)
      = (V c main_v39 : S1x64.Idx → EReal) (ix2 (0 : Fin 1) q) := by
  obtain ⟨-, -, -, -, -, ⟨e0, e1⟩, -⟩ := index_maps1 t
  unfold iblk1
  rw [View.read_apply]
  show V c main_v39 _ = V c main_v39 _
  congr 1
  funext a
  apply Fin.ext
  match a with
  | ⟨0, _⟩ => show win1_5.index t 0 * 1 + 1 * 0 = 0; rw [e0]
  | ⟨1, _⟩ => show win1_5.index t 1 * 64 + 1 * q.val = q.val; rw [e1]; omega

/-- Entry (p, q) of the output's block t sits at row 5000 t + p, column q of the output array. -/
theorem out_block1_emb (t : Fin cfg1.N) (p : Fin 5000) (q : Fin 64) (P : Fin 100000)
    (hP : P.val = t.val * 5000 + p.val) :
    ((cfg1.win 6).blk t).view.emb (ix2 p q) = (ix2 P q : S100000x64.Idx) := by
  obtain ⟨-, -, -, -, -, -, e0, e1⟩ := index_maps1 t
  funext a
  apply Fin.ext
  match a with
  | ⟨0, _⟩ => show win1_6.index t 0 * 5000 + 1 * p.val = P.val; rw [e0, hP]; omega
  | ⟨1, _⟩ => show win1_6.index t 1 * 64 + 1 * q.val = q.val; rw [e1]; omega

/-! ## What a point writes back, and the whole array -/

/-- What point t writes back is block t of the layer of the arrays the call finds. -/
theorem flushed1_eq (c : Dev nD) (t : Fin cfg1.N) :
    (dat1 (F := Ideal) V c).flushed 6 t = ((cfg1.win 6).blk t).view.read (Elt Ideal)
      (kLayer (N := 100000) (C := 64) (H := 64) (V c main_v36) (V c main_v26) (V c main_v12) (V c main_v37) (V c main_v38) (V c main_v39)) := by
  show (cfg1.win 6).cut (grid1.coords t) ((dat1 V c).after 6 t) = _
  rw [after1_6]
  unfold out1_6
  rw [View.canon_unit_zero zero_offsets1]
  simp only [View.ld_unit_zero (S := S5000x64) zero_offsets1, View.ld_unit_zero (S := S5000x1) zero_offsets1,
    View.ld_unit_zero (S := S64x64) zero_offsets1, View.ld_unit_zero (S := S1x64) zero_offsets1]
  funext j
  obtain ⟨p, q, rfl⟩ : ∃ (p : Fin 5000) (q : Fin 64), j = ix2 p q := ⟨j 0, j 1, eq_ix2 j⟩
  have hN : cfg1.N = 20 := N_1
  have ht : t.val < cfg1.N := t.isLt
  obtain ⟨P, hP⟩ : ∃ P : Fin 100000, P.val = t.val * 5000 + p.val :=
    ⟨⟨t.val * 5000 + p.val, by have := p.isLt; omega⟩, rfl⟩
  show k1_pay1 (iblk1 V c 0 t) (iblk1 V c 2 t) (iblk1 V c 1 t) (iblk1 V c 3 t) (iblk1 V c 4 t) (iblk1 V c 5 t) (ix2 p q)
    = kLayer (N := 100000) (C := 64) (H := 64) (V c main_v36) (V c main_v26) (V c main_v12) (V c main_v37) (V c main_v38) (V c main_v39)
        (((cfg1.win 6).blk t).view.emb (ix2 p q))
  rw [out_block1_emb t p q P hP]
  exact layer1_entry_of_blocks (iblk1 V c 0 t) (iblk1 V c 2 t) (iblk1 V c 1 t) (iblk1 V c 3 t) (iblk1 V c 4 t) (iblk1 V c 5 t) p q P
    (fun k => sums_block1_apply V c t p k P hP) (fun k => feats_block1_apply V c t p k P hP)
    (recip_block1_apply V c t p P hP) (fun k => wl_block1_apply V c t k q) (fun k => wr_block1_apply V c t k q)
    (bias_block1_apply V c t q)

/-- An index of the output array is in point t's block iff each coordinate is in the block's range on its axis. -/
theorem mem_out_block1 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v40).slice (win1_6.rect t)).set ↔ _
  rw [View.set_slice_whole, Rect.mem_set_unit]
  exact Iff.rfl

/-- The twenty blocks tile the array: row r is in the block of point r / 5000, and every point writes back. -/
theorem out_cover1 (i : S100000x64.Idx) :
    ∃ t : Fin cfg1.N, (cfg1.win 6).flush t = true ∧ i ∈ ((cfg1.win 6).blk t).view.set := by
  have hN : cfg1.N = 20 := N_1
  have hi0 : (i 0).val < 100000 := (i 0).isLt
  have hi1 : (i 1).val < 64 := (i 1).isLt
  obtain ⟨t, ht⟩ : ∃ t : Fin cfg1.N, t.val = (i 0).val / 5000 := ⟨⟨(i 0).val / 5000, by omega⟩, rfl⟩
  obtain ⟨-, -, -, -, -, -, e0, e1⟩ := index_maps1 t
  refine ⟨t, flush1_6 t, ?_⟩
  rw [mem_out_block1]
  intro a
  match a with
  | ⟨0, _⟩ =>
    show win1_6.index t 0 * 5000 ≤ (i 0).val ∧ (i 0).val < win1_6.index t 0 * 5000 + 5000
    rw [e0, ht]; omega
  | ⟨1, _⟩ =>
    show win1_6.index t 1 * 64 ≤ (i 1).val ∧ (i 1).val < win1_6.index t 1 * 64 + 64
    rw [e1]; omega

/-- The output array of pallas_call 1 after its grid has run, from the arrays the call finds: the layer of Spec.lean,
    entry by entry (each block of 5000 rows is the layer of those rows, and the twenty blocks tile the array). -/
theorem final1 (c : Dev nD) :
    (dat1 (F := Ideal) V c).arrAt 6 cfg1.N
      = kLayer (N := 100000) (C := 64) (H := 64) (V c main_v36) (V c main_v26) (V c main_v12) (V c main_v37) (V c main_v38) (V c main_v39) :=
  (dat1 (F := Ideal) V c).arrAt_eq_of_cover 6
    (kLayer (N := 100000) (C := 64) (H := 64) (V c main_v36) (V c main_v26) (V c main_v12) (V c main_v37) (V c main_v38) (V c main_v39))
    (fun t _ => flushed1_eq V c t) out_cover1

end Cert.KernelIdeal.RegionValue

end
-- ==== Proof.Region2.lean ====
/-
  The third pallas_call's output array as a whole: the 64-to-64 layer of the arrays it is called with.

  The grid has twenty points. At point t the body sees rows 5000 t .. 5000 t + 4999 of the neighbour sums, of the
  features and of the reciprocal column, and the two weight matrices and the bias row whole; it stores the layer of
  those rows as rows 5000 t .. 5000 t + 4999 of the output. An entry of the layer depends on one row of the row-blocked
  arrays only, so the block the body stores is the block of the layer of the whole arrays; the twenty blocks tile the
  100000 rows (row r lies in block r / 5000), so the output array ends as that layer.
-/
import proofs.«157071_j31585189495032_1_alg».proof.Proof.Gen.KernelIdeal.Frame
import proofs.«157071_j31585189495032_1_alg».proof.Proof.Spec
import proofs.«157071_j31585189495032_1_alg».proof.Proof.LibDot
import proofs.«157071_j31585189495032_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.Sage

/-! ## The stored block, entry by entry -/

/-- Entry (p, q) of the block the body stores: the layer's entry of the loaded blocks. The casts of a shape to itself
    and the changes of float format are the identity; the reciprocal column is laid across the sixty-four feature columns and
    the bias row down the rows; each product into the zero accumulator is the plain sum over the sixty-four features. -/
theorem layer2_block_apply (x0 : Vec Ideal S5000x64 .f32) (x2 : Vec Ideal S5000x1 .f32) (x7 : Vec Ideal S5000x64 .f32)
    (x9 x12 : Vec Ideal S64x64 .f32) (x18 : Vec Ideal S1x64 .f32) (p : Fin 5000) (q : Fin 64) :
    k2_pay1 x0 x2 x7 x9 x12 x18 (ix2 p q) = kLayerAt (N := 5000) (C := 64) (H := 64) x0 x7 x2 x9 x12 x18 p q := by
  unfold k2_pay1 kLayerAt
  simp only [shapeCast_self]
  refine (maximumf_apply _ _ _).trans ?_
  refine congrArg₂ max ?_ (show _ = _ from Ideal.ofBits_zero_f32)
  refine (addf_apply _ _ _).trans ?_
  refine congrArg₂ (· + ·) ?_ (broadcastTo_1b_ab_apply x18 broadcasts_S1x64_S5000x64 p q)
  refine (addf_apply _ _ _).trans ?_
  refine congrArg₂ (· + ·) ?_ ?_
  · refine (Cert.LibDot.matmul_zero_plain_apply dot_S5000x64_S64x64_S5000x64_1_0_0_1_n_n rfl rfl rfl rfl rfl rfl none _ _ (ix2 p q)).trans ?_
    refine Finset.sum_congr rfl fun k _ => ?_
    show (x0 (ix2 p k) * broadcastTo S5000x64 x2 broadcasts_S5000x1_S5000x64 (ix2 p k)) * x9 (ix2 k q) = _
    rw [Cert.LibColumn.broadcastTo_a1_ab_apply x2 broadcasts_S5000x1_S5000x64 p k]
  · exact Cert.LibDot.matmul_zero_plain_apply dot_S5000x64_S64x64_S5000x64_1_0_0_1_n_n rfl rfl rfl rfl rfl rfl none _ _ (ix2 p q)

/-- The layer's entry of the blocks, once each block's entries are entries of whole arrays: row p of the row blocks is
    row P of the arrays, and the weights and the bias are read whole. -/
theorem layer2_entry_of_blocks {S x : Mat 100000 64} {inv : Mat 100000 1} {wl wr : Mat 64 64} {b : Mat 1 64}
    (x0 : Vec Ideal S5000x64 .f32) (x2 : Vec Ideal S5000x1 .f32) (x7 : Vec Ideal S5000x64 .f32)
    (x9 x12 : Vec Ideal S64x64 .f32) (x18 : Vec Ideal S1x64 .f32) (p : Fin 5000) (q : Fin 64) (P : Fin 100000)
    (h0 : ∀ k : Fin 64, x0 (ix2 p k) = S (ix2 P k)) (h7 : ∀ k : Fin 64, x7 (ix2 p k) = x (ix2 P k))
    (h2 : x2 (ix2 p (0 : Fin 1)) = inv (ix2 P (0 : Fin 1)))
    (h9 : ∀ k : Fin 64, x9 (ix2 k q) = wl (ix2 k q)) (h12 : ∀ k : Fin 64, x12 (ix2 k q) = wr (ix2 k q))
    (h18 : x18 (ix2 (0 : Fin 1) q) = b (ix2 (0 : Fin 1) q)) :
    k2_pay1 x0 x2 x7 x9 x12 x18 (ix2 p q) = kLayerAt S x inv wl wr b P q := by
  rw [layer2_block_apply]
  unfold kLayerAt
  simp only [h0, h7, h2, h9, h12, h18]

/-! ## The blocks as parts of the arrays -/

variable (V : (c : Dev nD) → (b : Ref sig .tc) → Buf (Elt Ideal) ((c : Thread nD τ).loc b))

theorem zero_offsets2 : (![0, 0] : Fin 2 → Nat) = fun _ => 0 := funext fun a => by fin_cases a <;> rfl

/-- The index maps over the twenty grid points: the three row-blocked inputs and the output take block t of the rows at
    point t, in the one block of columns; the weights and the bias are one block each. -/
theorem index_maps2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- Block t of the neighbour sums, at (p, k), is the array at row 5000 t + p. -/
theorem sums_block2_apply (c : Dev nD) (t : Fin cfg2.N) (p : Fin 5000) (k : Fin 64) (P : Fin 100000)
    (hP : P.val = t.val * 5000 + p.val) :
    (iblk2 (F := Ideal) V c 0 t : Vec Ideal S5000x64 .f32) (ix2 p k) = (V c main_v50 : S100000x64.Idx → EReal) (ix2 P k) := by
  obtain ⟨⟨e0, e1⟩, -⟩ := index_maps2 t
  unfold iblk2
  rw [View.read_apply]
  show V c main_v50 _ = V c main_v50 _
  congr 1
  funext a
  apply Fin.ext
  match a with
  | ⟨0, _⟩ => show win2_0.index t 0 * 5000 + 1 * p.val = P.val; rw [e0, hP]; omega
  | ⟨1, _⟩ => show win2_0.index t 1 * 64 + 1 * k.val = k.val; rw [e1]; omega

/-- Block t of the features, at (p, k), is the array at row 5000 t + p. -/
theorem feats_block2_apply (c : Dev nD) (t : Fin cfg2.N) (p : Fin 5000) (k : Fin 64) (P : Fin 100000)
    (hP : P.val = t.val * 5000 + p.val) :
    (iblk2 (F := Ideal) V c 1 t : Vec Ideal S5000x64 .f32) (ix2 p k) = (V c main_v40 : S100000x64.Idx → EReal) (ix2 P k) := by
  obtain ⟨-, ⟨e0, e1⟩, -⟩ := index_maps2 t
  unfold iblk2
  rw [View.read_apply]
  show V c main_v40 _ = V c main_v40 _
  congr 1
  funext a
  apply Fin.ext
  match a with
  | ⟨0, _⟩ => show win2_1.index t 0 * 5000 + 1 * p.val = P.val; rw [e0, hP]; omega
  | ⟨1, _⟩ => show win2_1.index t 1 * 64 + 1 * k.val = k.val; rw [e1]; omega

/-- Block t of the reciprocal column, at (p, 0), is the column at row 5000 t + p. -/
theorem recip_block2_apply (c : Dev nD) (t : Fin cfg2.N) (p : Fin 5000) (P : Fin 100000)
    (hP : P.val = t.val * 5000 + p.val) :
    (iblk2 (F := Ideal) V c 2 t : Vec Ideal S5000x1 .f32) (ix2 p (0 : Fin 1))
      = (V c main_v12 : S100000x1.Idx → EReal) (ix2 P (0 : Fin 1)) := by
  obtain ⟨-, -, ⟨e0, e1⟩, -⟩ := index_maps2 t
  unfold iblk2
  rw [View.read_apply]
  show V c main_v12 _ = V c main_v12 _
  congr 1
  funext a
  apply Fin.ext
  match a with
  | ⟨0, _⟩ => show win2_2.index t 0 * 5000 + 1 * p.val = P.val; rw [e0, hP]; omega
  | ⟨1, _⟩ => show win2_2.index t 1 * 1 + 1 * 0 = 0; rw [e1]

/-- The left weights' one block is the whole matrix. -/
theorem wl_block2_apply (c : Dev nD) (t : Fin cfg2.N) (k : Fin 64) (q : Fin 64) :
    (iblk2 (F := Ideal) V c 3 t : Vec Ideal S64x64 .f32) (ix2 k q) = (V c main_v51 : S64x64.Idx → EReal) (ix2 k q) := by
  obtain ⟨-, -, -, ⟨e0, e1⟩, -⟩ := index_maps2 t
  unfold iblk2
  rw [View.read_apply]
  show V c main_v51 _ = V c main_v51 _
  congr 1
  funext a
  apply Fin.ext
  match a with
  | ⟨0, _⟩ => show win2_3.index t 0 * 64 + 1 * k.val = k.val; rw [e0]; omega
  | ⟨1, _⟩ => show win2_3.index t 1 * 64 + 1 * q.val = q.val; rw [e1]; omega

/-- The right weights' one block is the whole matrix. -/
theorem wr_block2_apply (c : Dev nD) (t : Fin cfg2.N) (k : Fin 64) (q : Fin 64) :
    (iblk2 (F := Ideal) V c 4 t : Vec Ideal S64x64 .f32) (ix2 k q) = (V c main_v52 : S64x64.Idx → EReal) (ix2 k q) := by
  obtain ⟨-, -, -, -, ⟨e0, e1⟩, -⟩ := index_maps2 t
  unfold iblk2
  rw [View.read_apply]
  show V c main_v52 _ = V c main_v52 _
  congr 1
  funext a
  apply Fin.ext
  match a with
  | ⟨0, _⟩ => show win2_4.index t 0 * 64 + 1 * k.val = k.val; rw [e0]; omega
  | ⟨1, _⟩ => show win2_4.index t 1 * 64 + 1 * q.val = q.val; rw [e1]; omega

/-- The bias row's one block is the whole row. -/
theorem bias_block2_apply (c : Dev nD) (t : Fin cfg2.N) (q : Fin 64) :
    (iblk2 (F := Ideal) V c 5 t : Vec Ideal S1x64 .f32) (ix2 (0 : Fin 1) q)
      = (V c main_v53 : S1x64.Idx → EReal) (ix2 (0 : Fin 1) q) := by
  obtain ⟨-, -, -, -, -, ⟨e0, e1⟩, -⟩ := index_maps2 t
  unfold iblk2
  rw [View.read_apply]
  show V c main_v53 _ = V c main_v53 _
  congr 1
  funext a
  apply Fin.ext
  match a with
  | ⟨0, _⟩ => show win2_5.index t 0 * 1 + 1 * 0 = 0; rw [e0]
  | ⟨1, _⟩ => show win2_5.index t 1 * 64 + 1 * q.val = q.val; rw [e1]; omega

/-- Entry (p, q) of the output's block t sits at row 5000 t + p, column q of the output array. -/
theorem out_block2_emb (t : Fin cfg2.N) (p : Fin 5000) (q : Fin 64) (P : Fin 100000)
    (hP : P.val = t.val * 5000 + p.val) :
    ((cfg2.win 6).blk t).view.emb (ix2 p q) = (ix2 P q : S100000x64.Idx) := by
  obtain ⟨-, -, -, -, -, -, e0, e1⟩ := index_maps2 t
  funext a
  apply Fin.ext
  match a with
  | ⟨0, _⟩ => show win2_6.index t 0 * 5000 + 1 * p.val = P.val; rw [e0, hP]; omega
  | ⟨1, _⟩ => show win2_6.index t 1 * 64 + 1 * q.val = q.val; rw [e1]; omega

/-! ## What a point writes back, and the whole array -/

/-- What point t writes back is block t of the layer of the arrays the call finds. -/
theorem flushed2_eq (c : Dev nD) (t : Fin cfg2.N) :
    (dat2 (F := Ideal) V c).flushed 6 t = ((cfg2.win 6).blk t).view.read (Elt Ideal)
      (kLayer (N := 100000) (C := 64) (H := 64) (V c main_v50) (V c main_v40) (V c main_v12) (V c main_v51) (V c main_v52) (V c main_v53)) := by
  show (cfg2.win 6).cut (grid2.coords t) ((dat2 V c).after 6 t) = _
  rw [after2_6]
  unfold out2_6
  rw [View.canon_unit_zero zero_offsets2]
  simp only [View.ld_unit_zero (S := S5000x64) zero_offsets2, View.ld_unit_zero (S := S5000x1) zero_offsets2,
    View.ld_unit_zero (S := S64x64) zero_offsets2, View.ld_unit_zero (S := S1x64) zero_offsets2]
  funext j
  obtain ⟨p, q, rfl⟩ : ∃ (p : Fin 5000) (q : Fin 64), j = ix2 p q := ⟨j 0, j 1, eq_ix2 j⟩
  have hN : cfg2.N = 20 := N_2
  have ht : t.val < cfg2.N := t.isLt
  obtain ⟨P, hP⟩ : ∃ P : Fin 100000, P.val = t.val * 5000 + p.val :=
    ⟨⟨t.val * 5000 + p.val, by have := p.isLt; omega⟩, rfl⟩
  show k2_pay1 (iblk2 V c 0 t) (iblk2 V c 2 t) (iblk2 V c 1 t) (iblk2 V c 3 t) (iblk2 V c 4 t) (iblk2 V c 5 t) (ix2 p q)
    = kLayer (N := 100000) (C := 64) (H := 64) (V c main_v50) (V c main_v40) (V c main_v12) (V c main_v51) (V c main_v52) (V c main_v53)
        (((cfg2.win 6).blk t).view.emb (ix2 p q))
  rw [out_block2_emb t p q P hP]
  exact layer2_entry_of_blocks (iblk2 V c 0 t) (iblk2 V c 2 t) (iblk2 V c 1 t) (iblk2 V c 3 t) (iblk2 V c 4 t) (iblk2 V c 5 t) p q P
    (fun k => sums_block2_apply V c t p k P hP) (fun k => feats_block2_apply V c t p k P hP)
    (recip_block2_apply V c t p P hP) (fun k => wl_block2_apply V c t k q) (fun k => wr_block2_apply V c t k q)
    (bias_block2_apply V c t q)

/-- An index of the output array is in point t's block iff each coordinate is in the block's range on its axis. -/
theorem mem_out_block2 (t : Fin cfg2.N) (i : S100000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v54).slice (win2_6.rect t)).set ↔ _
  rw [View.set_slice_whole, Rect.mem_set_unit]
  exact Iff.rfl

/-- The twenty blocks tile the array: row r is in the block of point r / 5000, and every point writes back. -/
theorem out_cover2 (i : S100000x64.Idx) :
    ∃ t : Fin cfg2.N, (cfg2.win 6).flush t = true ∧ i ∈ ((cfg2.win 6).blk t).view.set := by
  have hN : cfg2.N = 20 := N_2
  have hi0 : (i 0).val < 100000 := (i 0).isLt
  have hi1 : (i 1).val < 64 := (i 1).isLt
  obtain ⟨t, ht⟩ : ∃ t : Fin cfg2.N, t.val = (i 0).val / 5000 := ⟨⟨(i 0).val / 5000, by omega⟩, rfl⟩
  obtain ⟨-, -, -, -, -, -, e0, e1⟩ := index_maps2 t
  refine ⟨t, flush2_6 t, ?_⟩
  rw [mem_out_block2]
  intro a
  match a with
  | ⟨0, _⟩ =>
    show win2_6.index t 0 * 5000 ≤ (i 0).val ∧ (i 0).val < win2_6.index t 0 * 5000 + 5000
    rw [e0, ht]; omega
  | ⟨1, _⟩ =>
    show win2_6.index t 1 * 64 ≤ (i 1).val ∧ (i 1).val < win2_6.index t 1 * 64 + 64
    rw [e1]; omega

/-- The output array of pallas_call 2 after its grid has run, from the arrays the call finds: the layer of Spec.lean,
    entry by entry (each block of 5000 rows is the layer of those rows, and the twenty blocks tile the array). -/
theorem final2 (c : Dev nD) :
    (dat2 (F := Ideal) V c).arrAt 6 cfg2.N
      = kLayer (N := 100000) (C := 64) (H := 64) (V c main_v50) (V c main_v40) (V c main_v12) (V c main_v51) (V c main_v52) (V c main_v53) :=
  (dat2 (F := Ideal) V c).arrAt_eq_of_cover 6
    (kLayer (N := 100000) (C := 64) (H := 64) (V c main_v50) (V c main_v40) (V c main_v12) (V c main_v51) (V c main_v52) (V c main_v53))
    (fun t _ => flushed2_eq V c t) out_cover2

end Cert.KernelIdeal.RegionValue

end
-- ==== Proof.Region3.lean ====
/-
  The fourth pallas_call's output array as a whole: the linear head of the arrays it is called with.

  The call walks 20 grid points.  At point t it reads rows 5000·t … 5000·t + 4999 of the 100000 × 64 feature array,
  the whole 64 × 3 weight array and the whole 1 × 3 bias row, and writes rows 5000·t … 5000·t + 4999 of the
  100000 × 3 result.  Entry (p, q) of the block it writes is Σₖ x (p, k) · w (k, q) + b (0, q) over the block's own
  rows: a change of float format is the identity on the extended reals, the product is accumulated into zero, and
  the bias row is repeated down the rows.  Row p of block t is row 5000·t + p of the array, so each block written
  is the corresponding block of the head of the whole arrays; the 20 blocks tile the result (row r lies in block
  r / 5000), so the result is the head of the whole arrays.
-/
import proofs.«157071_j31585189495032_1_alg».proof.Proof.Gen.KernelIdeal.Frame
import proofs.«157071_j31585189495032_1_alg».proof.Proof.Spec
import proofs.«157071_j31585189495032_1_alg».proof.Proof.LibDot
import proofs.«157071_j31585189495032_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.Sage

/-! ## The block written at one grid point, entry by entry -/

/-- Entry `(p, q)` of the block the body stores, from the three blocks it loads: the head's entry function of
    those blocks.  The casts of a shape to itself and the changes of float format are identities, the product into
    the zero accumulator is the plain sum over the 64 contracted coordinates, and the bias row is read at column
    `q` whatever the row. -/
theorem head_block_apply (x0 : Vec Ideal S5000x64 .f32) (x1 : Vec Ideal S64x3 .f32) (x2 : Vec Ideal S1x3 .f32)
    (p : Fin 5000) (q : Fin 3) :
    k3_pay1 (F := Ideal) x0 x1 x2 (ix2 p q) = kHeadAt (N := 5000) (C := 64) (H := 3) x0 x1 x2 p q := by
  unfold k3_pay1 kHeadAt
  refine (addf_apply _ _ (ix2 p q)).trans ?_
  have e1 : matmul dot_S5000x64_S64x3_S5000x3_1_0_0_1_n_n none
        (truncf FTy.bf16 (shapeCast S5000x64 x0 shapeCasts_S5000x64_S5000x64) bitsLt_bf16_f32)
        (truncf FTy.bf16 (shapeCast S64x3 x1 shapeCasts_S64x3_S64x3) bitsLt_bf16_f32)
        (constant (F := Ideal) S5000x3 FTy.f32 0x00000000#32) (ix2 p q)
      = ∑ k : Fin 64, x0 (ix2 p k) * x1 (ix2 k q) := by
    refine (Cert.LibDot.matmul_zero_plain_apply (M := 5000) (K := 64) (N := 3)
      dot_S5000x64_S64x3_S5000x3_1_0_0_1_n_n rfl rfl rfl rfl rfl rfl none _ _ (ix2 p q)).trans ?_
    refine Finset.sum_congr rfl fun k _ => ?_
    rw [shapeCast_self, shapeCast_self]
    rfl
  have e2 : broadcastTo S5000x3 (shapeCast S1x3 x2 shapeCasts_S1x3_S1x3) broadcasts_S1x3_S5000x3 (ix2 p q)
      = x2 (ix2 (0 : Fin 1) q) := by
    refine (broadcastTo_1b_ab_apply (a := 5000) (b := 3) _ broadcasts_S1x3_S5000x3 p q).trans ?_
    rw [shapeCast_self]
  rw [e1, e2]

/-- The head's entry function only looks at one row of the features, one column of the weights and one entry of the
    bias: two evaluations agree as soon as those agree. -/
theorem kHeadAt_eq_of_rows {N N' : Nat} (h : Mat N 64) (h' : Mat N' 64) (w w' : Mat 64 3) (b b' : Mat 1 3)
    (p : Fin N) (p' : Fin N') (q q' : Fin 3)
    (hh : ∀ k : Fin 64, h (ix2 p k) = h' (ix2 p' k)) (hw : ∀ k : Fin 64, w (ix2 k q) = w' (ix2 k q'))
    (hb : b (ix2 (0 : Fin 1) q) = b' (ix2 (0 : Fin 1) q')) :
    kHeadAt h w b p q = kHeadAt h' w' b' p' q' := by
  unfold kHeadAt
  rw [hb]
  exact congrArg (· + b' (ix2 (0 : Fin 1) q')) (Finset.sum_congr rfl fun k _ => by rw [hh k, hw k])

/-! ## The blocks as parts of the arrays -/

theorem zero_offsets : (![0, 0] : Fin 2 → Nat) = fun _ => 0 := funext fun a => by fin_cases a <;> rfl

/-- The index maps over the 20 grid points: the feature window moves down the rows with the output window and stays
    in column block 0; the weight and bias windows stay at block (0, 0); the output window's row block is below 20
    and its column block is 0. -/
theorem index_facts : ∀ t : Fin cfg3.N,
    win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 19 ∧ win3_3.index t (1 : Fin 2) = 0 :=
  (by decide +kernel : ∀ t : Fin grid3.N, _)

/-- Every one of the 20 row blocks of the output is some grid point's. -/
theorem index_onto : ∀ r : Fin 20, ∃ t : Fin cfg3.N, win3_3.index t = ![r.val, 0] :=
  (by decide +kernel : ∀ r : Fin 20, ∃ t : Fin grid3.N, win3_3.index t = ![r.val, 0])

variable (V : (c : Dev nD) → (b : Ref sig .tc) → Buf (Elt Ideal) ((c : Thread nD τ).loc b))

/-- The feature window's block at point `t` is rows `5000·(row block) … + 4999` of the feature array. -/
theorem features_block_apply (c : Dev nD) (t : Fin cfg3.N) (x : S5000x64.Idx) (i : S100000x64.Idx)
    (h0 : (i 0).val = win3_3.index t (0 : Fin 2) * 5000 + (x 0).val) (h1 : (i 1).val = (x 1).val) :
    (iblk3 V c 0 t : Vec Ideal S5000x64 .f32) x = (V c main_v54 : S100000x64.Idx → EReal) i := by
  obtain ⟨e0, e1, -⟩ := index_facts t
  unfold iblk3
  rw [View.read_apply]
  show V c main_v54 _ = V c main_v54 _
  congr 1
  funext a
  apply Fin.ext
  match a with
  | ⟨0, _⟩ => show win3_0.index t (0 : Fin 2) * 5000 + 1 * (x 0).val = (i 0).val; omega
  | ⟨1, _⟩ => show win3_0.index t (1 : Fin 2) * 64 + 1 * (x 1).val = (i 1).val; omega

/-- The weight window's block at every point is the whole weight array. -/
theorem weights_block_apply (c : Dev nD) (t : Fin cfg3.N) (x i : S64x3.Idx)
    (h0 : (i 0).val = (x 0).val) (h1 : (i 1).val = (x 1).val) :
    (iblk3 V c 1 t : Vec Ideal S64x3 .f32) x = (V c main_v55 : S64x3.Idx → EReal) i := by
  obtain ⟨-, -, e0, e1, -⟩ := index_facts t
  unfold iblk3
  rw [View.read_apply]
  show V c main_v55 _ = V c main_v55 _
  congr 1
  funext a
  apply Fin.ext
  match a with
  | ⟨0, _⟩ => show win3_1.index t (0 : Fin 2) * 64 + 1 * (x 0).val = (i 0).val; omega
  | ⟨1, _⟩ => show win3_1.index t (1 : Fin 2) * 3 + 1 * (x 1).val = (i 1).val; omega

/-- The bias window's block at every point is the whole bias row. -/
theorem bias_block_apply (c : Dev nD) (t : Fin cfg3.N) (x i : S1x3.Idx)
    (h0 : (i 0).val = (x 0).val) (h1 : (i 1).val = (x 1).val) :
    (iblk3 V c 2 t : Vec Ideal S1x3 .f32) x = (V c main_v56 : S1x3.Idx → EReal) i := by
  obtain ⟨-, -, -, -, e0, e1, -⟩ := index_facts t
  unfold iblk3
  rw [View.read_apply]
  show V c main_v56 _ = V c main_v56 _
  congr 1
  funext a
  apply Fin.ext
  match a with
  | ⟨0, _⟩ => show win3_2.index t (0 : Fin 2) * 1 + 1 * (x 0).val = (i 0).val; omega
  | ⟨1, _⟩ => show win3_2.index t (1 : Fin 2) * 3 + 1 * (x 1).val = (i 1).val; omega

/-- What point `t` writes back is block `t` of the head of the whole arrays. -/
theorem flushed_eq_head_block (c : Dev nD) (t : Fin cfg3.N) :
    (dat3 (F := Ideal) V c).flushed 3 t = ((cfg3.win 3).blk t).view.read (Elt Ideal)
      (kHead (N := 100000) (C := 64) (H := 3) (V c main_v54) (V c main_v55) (V c main_v56)) := by
  show (cfg3.win 3).cut (grid3.coords t) ((dat3 V c).after 3 t) = _
  rw [after3_3]
  unfold out3_3
  rw [View.canon_unit_zero zero_offsets]
  simp only [View.ld_unit_zero (S := S5000x64) zero_offsets, View.ld_unit_zero (S := S64x3) zero_offsets,
    View.ld_unit_zero (S := S1x3) zero_offsets]
  obtain ⟨-, -, -, -, -, -, -, e1⟩ := index_facts t
  have key : ∀ (p : Fin 5000) (q : Fin 3),
      k3_pay1 (F := Ideal) (iblk3 V c 0 t) (iblk3 V c 1 t) (iblk3 V c 2 t) (ix2 p q)
        = kHead (N := 100000) (C := 64) (H := 3) (V c main_v54) (V c main_v55) (V c main_v56)
            (((cfg3.win 3).blk t).view.emb (ix2 p q)) := by
    intro p q
    refine (head_block_apply (iblk3 V c 0 t) (iblk3 V c 1 t) (iblk3 V c 2 t) p q).trans ?_
    have he0 : ((((cfg3.win 3).blk t).view.emb (ix2 p q)) (0 : Fin 2)).val
        = win3_3.index t (0 : Fin 2) * 5000 + p.val := by
      show win3_3.index t (0 : Fin 2) * 5000 + 1 * p.val = _
      omega
    have he1 : ((((cfg3.win 3).blk t).view.emb (ix2 p q)) (1 : Fin 2)).val = q.val := by
      show win3_3.index t (1 : Fin 2) * 3 + 1 * q.val = _
      omega
    unfold kHead
    exact kHeadAt_eq_of_rows (iblk3 V c 0 t) (V c main_v54) (iblk3 V c 1 t) (V c main_v55) (iblk3 V c 2 t) (V c main_v56)
      p _ q _
      (fun k => features_block_apply V c t (ix2 p k) (ix2 _ k) he0 rfl)
      (fun k => weights_block_apply V c t (ix2 k q) (ix2 k _) rfl he1)
      (bias_block_apply V c t (ix2 (0 : Fin 1) q) (ix2 (0 : Fin 1) _) rfl he1)
  funext j
  have hj : j = ix2 (j 0) (j 1) := eq_ix2 j
  rw [hj]
  exact key (j 0) (j 1)

/-! ## The blocks tile the output -/

/-- A row-and-column index of the output lies in point `t`'s block iff each coordinate lies in the block's range. -/
theorem mem_out_block (t : Fin cfg3.N) (i : S100000x3.Idx) :
    i ∈ ((cfg3.win 3).blk t).view.set ↔ ∀ a : Fin 2, win3_3.index t a * S5000x3.size a ≤ (i a).val
      ∧ (i a).val < win3_3.index t a * S5000x3.size a + S5000x3.size a := by
  show i ∈ ((View.whole main_v57).slice (win3_3.rect t)).set ↔ _
  rw [View.set_slice_whole, Rect.mem_set_unit]
  exact Iff.rfl

/-- Row `r` of the output lies in the block of the point whose row block is `r / 5000`, and every point writes back. -/
theorem out_blocks_cover (i : S100000x3.Idx) :
    ∃ t : Fin cfg3.N, (cfg3.win 3).flush t = true ∧ i ∈ ((cfg3.win 3).blk t).view.set := by
  have hi0 : (i 0).val < 100000 := (i 0).isLt
  have hi1 : (i 1).val < 3 := (i 1).isLt
  obtain ⟨t, ht⟩ := index_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_out_block]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 3 ≤ (i 1).val ∧ (i 1).val < win3_3.index t (1 : Fin 2) * 3 + 3
    omega

/-- The output array of pallas_call 3 after its grid has run, from the arrays the call finds: the linear head of
    Spec.lean, entry by entry. -/
theorem final3 (c : Dev nD) :
    (dat3 (F := Ideal) V c).arrAt 3 cfg3.N
      = kHead (N := 100000) (C := 64) (H := 3) (V c main_v54) (V c main_v55) (V c main_v56) :=
  (dat3 (F := Ideal) V c).arrAt_eq_of_cover 3
    (kHead (N := 100000) (C := 64) (H := 3) (V c main_v54) (V c main_v55) (V c main_v56))
    (fun t _ => flushed_eq_head_block V c t) out_blocks_cover

end Cert.KernelIdeal.RegionValue

end
-- ==== Proof.RDefs.lean ====
/-
  The pieces of the network that the host computes, as functions of the argument arrays, and the whole network as
  one function of them — for the program `ReferenceIdeal`.

  `dst` and `src` are the edge list's two rows as index columns (a negative source id wrapped by the number of
  nodes, as indexing does); `degree` counts, per node, the edges that end there (a scatter-add of ones onto zeros);
  `divisor` is the degree or one, whichever is larger; `agg6` / `agg64` gather the source rows of a feature
  array and add them up per destination node.  `rNet` is three layers and the linear head over these.
-/
import proofs.«157071_j31585189495032_1_alg».proof.Proof.Gen.ReferenceIdeal
import proofs.«157071_j31585189495032_1_alg».proof.Proof.Spec

noncomputable section

namespace Cert.ReferenceIdeal.RVal

open Cert.ReferenceIdeal Cert.ReferenceIdeal.Gen Idealize.ShloMosaic Idealize.ShloMosaic.TcCoe Idealize.SL.Sem Cert.Sage

/-- The edge list: two rows of node ids. -/
abbrev Edges : Type := (⟨S2x1600000, .i32⟩ : BufTy).Contents (Elt Ideal)
/-- An index column, one id per edge. -/
abbrev IdCol : Type := (⟨S1600000x1, .i32⟩ : BufTy).Contents (Elt Ideal)

/-- Row 0 of the edge list: the source ids. -/
def srcRow (e : Edges) : (⟨S1600000, .i32⟩ : BufTy).Contents (Elt Ideal) :=
  shapeCast _ (extractStridedSlice S1x1600000 ![0, 0] e slices_S2x1600000_S1x1600000_0_0) shapeCasts_S1x1600000_S1600000

/-- Row 1 of the edge list, as a column: the destination ids. -/
def dst (e : Edges) : IdCol :=
  broadcastInDim S1600000x1 ![0] bcast_S1600000_S1600000x1_0
    (shapeCast _ (extractStridedSlice S1x1600000 ![1, 0] e slices_S2x1600000_S1x1600000_1_0) shapeCasts_S1x1600000_S1600000)

/-- The source ids, a negative one wrapped by the number of nodes, as a column. -/
def src (e : Edges) : IdCol :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))

/-- The in-degree of every node: ones, one per edge, added up per destination onto zeros. -/
def degree (e : Edges) : FVec Ideal S100000 .f32 :=
  Host.scatterAdd (F := Ideal) scatter_S100000_S1600000x1_S1600000_n_0_0_1
    (broadcastInDim S100000 ![] bcast_S_S100000 (constant (F := Ideal) S_ .f32 0x00000000#32)) (dst e)
    (broadcastInDim S1600000 ![] bcast_S_S1600000 (constant (F := Ideal) S_ .f32 0x3F800000#32))

/-- The divisor of the mean: the in-degree, or one where that is larger. -/
def divisor (e : Edges) : FVec Ideal S100000 .f32 :=
  maximumf (F := Ideal) (degree e) (broadcastInDim S100000 ![] bcast_S_S100000 (constant (F := Ideal) S_ .f32 0x3F800000#32))

/-- The neighbour sums of a 6-column feature array: its source rows gathered, added up per destination onto zeros. -/
def agg6 (e : Edges) (h : FVec Ideal S100000x6 .f32) : FVec Ideal S100000x6 .f32 :=
  Host.scatterAdd (F := Ideal) scatter_S100000x6_S1600000x1_S1600000x6_1_0_0_1
    (broadcastInDim S100000x6 ![] bcast_S_S100000x6 (constant (F := Ideal) S_ .f32 0x00000000#32)) (dst e)
    (Host.gather gather_S100000x6_S1600000x1_S1600000x6_1_0_n_n_0_1_16 h (src e))

/-- The neighbour sums of a 64-column feature array. -/
def agg64 (e : Edges) (h : FVec Ideal S100000x64 .f32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32)) (dst e)
    (Host.gather gather_S100000x64_S1600000x1_S1600000x64_1_0_n_n_0_1_164 h (src e))

/-- The first layer's output. -/
def h1 (x : FVec Ideal S100000x6 .f32) (e : Edges) (w1l : FVec Ideal S64x6 .f32) (b1 : FVec Ideal S64 .f32) (w1r : FVec Ideal S64x6 .f32) :
    FVec Ideal S100000x64 .f32 :=
  rLayer (N := 100000) (C := 6) (H := 64) (agg6 e x) x (divisor e) w1l w1r b1

/-- A 64-to-64 layer applied to a feature array. -/
def layer64 (e : Edges) (h : FVec Ideal S100000x64 .f32) (wl : FVec Ideal S64x64 .f32) (b : FVec Ideal S64 .f32) (wr : FVec Ideal S64x64 .f32) :
    FVec Ideal S100000x64 .f32 :=
  rLayer (N := 100000) (C := 64) (H := 64) (agg64 e h) h (divisor e) wl wr b

/-- The whole network: three layers and the linear head. -/
def rNet (x : FVec Ideal S100000x6 .f32) (e : Edges) (w1l : FVec Ideal S64x6 .f32) (b1 : FVec Ideal S64 .f32) (w1r : FVec Ideal S64x6 .f32)
    (w2l : FVec Ideal S64x64 .f32) (b2 : FVec Ideal S64 .f32) (w2r : FVec Ideal S64x64 .f32)
    (w3l : FVec Ideal S64x64 .f32) (b3 : FVec Ideal S64 .f32) (w3r : FVec Ideal S64x64 .f32)
    (fcw : FVec Ideal S3x64 .f32) (fcb : FVec Ideal S3 .f32) : FVec Ideal S100000x3 .f32 :=
  rHead (N := 100000) (C := 64) (H := 3)
    (layer64 e (layer64 e (h1 x e w1l b1 w1r) w2l b2 w2r) w3l b3 w3r) fcw fcb

end Cert.ReferenceIdeal.RVal

end
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.RefNet.lean ====
/-
  The reference program's result, read back: the term its run ends at IS the network of RDefs.lean — three layers
  (divide the neighbour sums by the divisor, contract with the weights read transposed, add the bias, add the self
  term, maximum with zero) and the linear head — as one function of the argument arrays.
-/
import proofs.«157071_j31585189495032_1_alg».proof.Proof.Gen.ReferenceIdeal.Run
import proofs.«157071_j31585189495032_1_alg».proof.Proof.Gen.ReferenceIdeal.Read
import proofs.«157071_j31585189495032_1_alg».proof.Proof.RDefs
import proofs.«157071_j31585189495032_1_alg».proof.Proof.LibDot
import proofs.«157071_j31585189495032_1_alg».proof.Proof.LibBcast
import Idealize.ShloMosaic.Lib.Pipeline.Value
import Idealize.ShloMosaic.Lib.ValueIdx
import Idealize.ShloMosaic.PureOps.Ideal.Laws

set_option maxRecDepth 16384

noncomputable section

namespace Cert.ReferenceIdeal.RefRead

open Cert.ReferenceIdeal Cert.ReferenceIdeal.Gen Idealize.ShloMosaic Idealize.ShloMosaic.TcCoe Idealize.SL.Sem
open Idealize.ShloMosaic.ValueIdx Cert.Sage Cert.ReferenceIdeal.RVal

section Operations

variable {N C H : Nat}

/-- A matrix of weights stored as `H × C` and transposed reads, at `(k, q)`, the stored entry `(q, k)`. -/
theorem transpose_read (w : FVec Ideal ⟨2, ![H, C]⟩ .f32)
    (htr : (⟨2, ![H, C]⟩ : Shape).Transposes [1, 0] ⟨2, ![C, H]⟩) (k : Fin C) (q : Fin H) :
    transpose ⟨2, ![C, H]⟩ [1, 0] w htr (ix2 k q) = w (ix2 q k) :=
  transpose_apply [1, 0] w htr (ix2 k q) (ix2 q k) (fun b => match b with
    | ⟨0, _⟩ => rfl
    | ⟨1, _⟩ => rfl)

/-- A product with transposed weights: entry `(p, q)` of `l · wᵀ`, for `w` stored as `H × C`, is
    `Σₖ l p k · w q k`. -/
theorem dot_transpose_apply
    (d : DotDims ⟨2, ![N, C]⟩ ⟨2, ![C, H]⟩ ⟨2, ![N, H]⟩)
    (hlc : d.lhsContracting = [1]) (hrc : d.rhsContracting = [0]) (hln : d.lhsNonContracting = [0])
    (hrn : d.rhsNonContracting = [1]) (hlb : d.lhsBatch = []) (hrb : d.rhsBatch = [])
    (htr : (⟨2, ![H, C]⟩ : Shape).Transposes [1, 0] ⟨2, ![C, H]⟩)
    (l : FVec Ideal ⟨2, ![N, C]⟩ .f32) (w : FVec Ideal ⟨2, ![H, C]⟩ .f32) (p : Fin N) (q : Fin H) :
    Host.dotGeneral (F := Ideal) d none l (transpose ⟨2, ![C, H]⟩ [1, 0] w htr) (ix2 p q)
      = ∑ k : Fin C, l (ix2 p k) * w (ix2 q k) := by
  simp only [Host.dotGeneral]
  rw [Cert.LibDot.dotGeneral_plain_apply d hlc hrc hln hrn hlb hrb]
  exact Finset.sum_congr rfl fun k _ => congrArg (l (ix2 p k) * ·) (transpose_read w htr k q)

/-- One layer as the host computes it — the neighbour sums `S` divided by the divisor column broadcast across the
    columns, contracted with the transposed weights, plus the bias row broadcast down the rows, plus the self
    term, maximum with the zero splat — is `rLayer`, entry by entry. -/
theorem layer_ops
    (d : DotDims ⟨2, ![N, C]⟩ ⟨2, ![C, H]⟩ ⟨2, ![N, H]⟩)
    (hlc : d.lhsContracting = [1]) (hrc : d.rhsContracting = [0]) (hln : d.lhsNonContracting = [0])
    (hrn : d.rhsNonContracting = [1]) (hlb : d.lhsBatch = []) (hrb : d.rhsBatch = [])
    (htr : (⟨2, ![H, C]⟩ : Shape).Transposes [1, 0] ⟨2, ![C, H]⟩)
    (hd1 : (⟨1, ![N]⟩ : Shape).BroadcastsInDim ⟨2, ![N, 1]⟩ (![0] : Fin 1 → Fin 2))
    (hd2 : (⟨2, ![N, 1]⟩ : Shape).BroadcastsInDim ⟨2, ![N, C]⟩ (![0, 1] : Fin 2 → Fin 2))
    (hb1 : (⟨1, ![H]⟩ : Shape).BroadcastsInDim ⟨2, ![1, H]⟩ (![1] : Fin 1 → Fin 2))
    (hb2 : (⟨2, ![1, H]⟩ : Shape).BroadcastsInDim ⟨2, ![N, H]⟩ (![0, 1] : Fin 2 → Fin 2))
    (hz : (⟨0, ![]⟩ : Shape).BroadcastsInDim ⟨2, ![N, H]⟩ (![] : Fin 0 → Fin 2))
    (S x : FVec Ideal ⟨2, ![N, C]⟩ .f32) (dv : FVec Ideal ⟨1, ![N]⟩ .f32)
    (wl wr : FVec Ideal ⟨2, ![H, C]⟩ .f32) (b : FVec Ideal ⟨1, ![H]⟩ .f32) :
    maximumf (F := Ideal)
      (addf (F := Ideal)
        (addf (F := Ideal)
          (Host.dotGeneral (F := Ideal) d none
            (Host.divf (F := Ideal) S
              (broadcastInDim ⟨2, ![N, C]⟩ ![0, 1] hd2 (broadcastInDim ⟨2, ![N, 1]⟩ ![0] hd1 dv)))
            (transpose ⟨2, ![C, H]⟩ [1, 0] wl htr))
          (broadcastInDim ⟨2, ![N, H]⟩ ![0, 1] hb2 (broadcastInDim ⟨2, ![1, H]⟩ ![1] hb1 b)))
        (Host.dotGeneral (F := Ideal) d none x (transpose ⟨2, ![C, H]⟩ [1, 0] wr htr)))
      (broadcastInDim ⟨2, ![N, H]⟩ ![] hz (constant (F := Ideal) ⟨0, ![]⟩ .f32 0x00000000#32))
    = rLayer S x dv wl wr b := by
  funext i
  obtain ⟨p, q, rfl⟩ : ∃ (p : Fin N) (q : Fin H), i = ix2 p q := ⟨i 0, i 1, eq_ix2 i⟩
  rw [maximumf_apply, addf_apply, addf_apply, Cert.LibBcast.scalar_apply, Cert.LibBcast.cols_apply, constant_apply,
    Ideal.ofBits_zero_f32, dot_transpose_apply d hlc hrc hln hrn hlb hrb, dot_transpose_apply d hlc hrc hln hrn hlb hrb]
  show _ = rLayerAt S x dv wl wr b p q
  unfold rLayerAt
  refine congrArg (fun t => max ((t + b (ix1 q)) + ∑ k : Fin C, x (ix2 p k) * wr (ix2 q k)) 0)
    (Finset.sum_congr rfl fun k _ => ?_)
  exact congrArg (fun t => Ideal.div (S (ix2 p k)) t * wl (ix2 q k)) (Cert.LibBcast.rows_apply dv hd1 hd2 p k)

/-- The linear head as the host computes it — the features contracted with the transposed weights plus the bias
    row broadcast down the rows — is `rHead`, entry by entry. -/
theorem head_ops
    (d : DotDims ⟨2, ![N, C]⟩ ⟨2, ![C, H]⟩ ⟨2, ![N, H]⟩)
    (hlc : d.lhsContracting = [1]) (hrc : d.rhsContracting = [0]) (hln : d.lhsNonContracting = [0])
    (hrn : d.rhsNonContracting = [1]) (hlb : d.lhsBatch = []) (hrb : d.rhsBatch = [])
    (htr : (⟨2, ![H, C]⟩ : Shape).Transposes [1, 0] ⟨2, ![C, H]⟩)
    (hb1 : (⟨1, ![H]⟩ : Shape).BroadcastsInDim ⟨2, ![1, H]⟩ (![1] : Fin 1 → Fin 2))
    (hb2 : (⟨2, ![1, H]⟩ : Shape).BroadcastsInDim ⟨2, ![N, H]⟩ (![0, 1] : Fin 2 → Fin 2))
    (h : FVec Ideal ⟨2, ![N, C]⟩ .f32) (w : FVec Ideal ⟨2, ![H, C]⟩ .f32) (b : FVec Ideal ⟨1, ![H]⟩ .f32) :
    addf (F := Ideal)
      (Host.dotGeneral (F := Ideal) d none h (transpose ⟨2, ![C, H]⟩ [1, 0] w htr))
      (broadcastInDim ⟨2, ![N, H]⟩ ![0, 1] hb2 (broadcastInDim ⟨2, ![1, H]⟩ ![1] hb1 b))
    = rHead h w b := by
  funext i
  obtain ⟨p, q, rfl⟩ : ∃ (p : Fin N) (q : Fin H), i = ix2 p q := ⟨i 0, i 1, eq_ix2 i⟩
  rw [addf_apply, Cert.LibBcast.cols_apply, dot_transpose_apply d hlc hrc hln hrn hlb hrb]
  rfl

end Operations

section Stages

variable (x0 : (⟨S100000x6, .f32⟩ : BufTy).Contents (Elt Ideal)) (x1 : (⟨S2x1600000, .i32⟩ : BufTy).Contents (Elt Ideal)) (x2 : (⟨S64x6, .f32⟩ : BufTy).Contents (Elt Ideal)) (x3 : (⟨S64, .f32⟩ : BufTy).Contents (Elt Ideal)) (x4 : (⟨S64x6, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S3x64, .f32⟩ : BufTy).Contents (Elt Ideal)) (x12 : (⟨S3, .f32⟩ : BufTy).Contents (Elt Ideal))

/-! The host's index columns, in-degree, divisor and neighbour sums are the very terms RDefs.lean names: each
    equation unfolds the stages on the left and the definitions on the right to the same composition. -/

/-- The divisor as the first layer computes it. -/
theorem divisor_eq1 : Read.val_main_v19 (F := Ideal) x1 = divisor x1 := by
  unfold Read.val_main_v19 Read.val_main_v18 Read.val_main_cst_3 Read.val_main_v7 Read.val_main_v6 Read.val_main_v5 Read.val_main_cst_0 Read.val_main_v4 Read.val_main_cst Read.val_main_v3 Read.val_main_v2
  unfold divisor degree dst
  rfl

/-- The divisor as the second layer computes it. -/
theorem divisor_eq2 : Read.val_main_v47 (F := Ideal) x1 = divisor x1 := by
  unfold Read.val_main_v47 Read.val_main_v46 Read.val_main_cst_9 Read.val_main_v35 Read.val_main_v34 Read.val_main_v33 Read.val_main_cst_5 Read.val_main_v32 Read.val_main_cst_4 Read.val_main_v3 Read.val_main_v2
  unfold divisor degree dst
  rfl

/-- The divisor as the third layer computes it. -/
theorem divisor_eq3 : Read.val_main_v75 (F := Ideal) x1 = divisor x1 := by
  unfold Read.val_main_v75 Read.val_main_v74 Read.val_main_cst_15 Read.val_main_v63 Read.val_main_v62 Read.val_main_v61 Read.val_main_cst_11 Read.val_main_v60 Read.val_main_cst_10 Read.val_main_v3 Read.val_main_v2
  unfold divisor degree dst
  rfl

/-- The first layer's neighbour sums. -/
theorem agg_eq1 : Read.val_main_v17 (F := Ideal) x0 x1 = agg6 x1 x0 := by
  unfold Read.val_main_v17 Read.val_main_v16 Read.val_main_v15 Read.val_main_cst_2 Read.val_main_v14 Read.val_main_v13 Read.val_main_v12 Read.val_main_v11 Read.val_main_v10 Read.val_main_c_1 Read.val_main_v9 Read.val_main_v8 Read.val_main_c Read.val_main_v3 Read.val_main_v2 Read.val_main_v1 Read.val_main_v0
  unfold agg6 dst src srcRow
  rfl

/-- The second layer's neighbour sums, of the first layer's output. -/
theorem agg_eq2 : Read.val_main_v45 (F := Ideal) x0 x1 x2 x3 x4 = agg64 x1 (Read.val_main_v31 (F := Ideal) x0 x1 x2 x3 x4) := by
  unfold Read.val_main_v45 Read.val_main_v44 Read.val_main_v43 Read.val_main_cst_8 Read.val_main_v42 Read.val_main_v41 Read.val_main_v40 Read.val_main_v39 Read.val_main_v38 Read.val_main_c_7 Read.val_main_v37 Read.val_main_v36 Read.val_main_c_6 Read.val_main_v3 Read.val_main_v2 Read.val_main_v1 Read.val_main_v0
  unfold agg64 dst src srcRow
  rfl

/-- The third layer's neighbour sums, of the second layer's output. -/
theorem agg_eq3 : Read.val_main_v73 (F := Ideal) x0 x1 x2 x3 x4 x5 x6 x7
    = agg64 x1 (Read.val_main_v59 (F := Ideal) x0 x1 x2 x3 x4 x5 x6 x7) := by
  unfold Read.val_main_v73 Read.val_main_v72 Read.val_main_v71 Read.val_main_cst_14 Read.val_main_v70 Read.val_main_v69 Read.val_main_v68 Read.val_main_v67 Read.val_main_v66 Read.val_main_c_13 Read.val_main_v65 Read.val_main_v64 Read.val_main_c_12 Read.val_main_v3 Read.val_main_v2 Read.val_main_v1 Read.val_main_v0
  unfold agg64 dst src srcRow
  rfl

/-- The first layer. -/
theorem layer1_eq : Read.val_main_v31 (F := Ideal) x0 x1 x2 x3 x4 = h1 x0 x1 x2 x3 x4 := by
  unfold Read.val_main_v31 Read.val_main_call0_v0 Read.val_main_call0_cst Read.val_main_v30 Read.val_main_v29 Read.val_main_v28 Read.val_main_v27 Read.val_main_v26 Read.val_main_v25 Read.val_main_v24 Read.val_main_v23 Read.val_main_v22 Read.val_main_v21 Read.val_main_v20
  rw [agg_eq1, divisor_eq1]
  unfold h1
  exact layer_ops dot_S100000x6_S6x64_S100000x64_1_0_0_1_n_n rfl rfl rfl rfl rfl rfl transposes_S64x6_S6x64_1_0
    bcast_S100000_S100000x1_0 bcast_S100000x1_S100000x6_0_1 bcast_S64_S1x64_1 bcast_S1x64_S100000x64_0_1
    bcast_S_S100000x64 (agg6 x1 x0) x0 (divisor x1) x2 x4 x3

/-- The second layer, of the first layer's output. -/
theorem layer2_eq : Read.val_main_v59 (F := Ideal) x0 x1 x2 x3 x4 x5 x6 x7
    = layer64 x1 (Read.val_main_v31 (F := Ideal) x0 x1 x2 x3 x4) x5 x6 x7 := by
  unfold Read.val_main_v59 Read.val_main_call1_v0 Read.val_main_call1_cst Read.val_main_v58 Read.val_main_v57 Read.val_main_v56 Read.val_main_v55 Read.val_main_v54 Read.val_main_v53 Read.val_main_v52 Read.val_main_v51 Read.val_main_v50 Read.val_main_v49 Read.val_main_v48
  rw [agg_eq2, divisor_eq2]
  unfold layer64
  exact layer_ops dot_S100000x64_S64x64_S100000x64_1_0_0_1_n_n rfl rfl rfl rfl rfl rfl transposes_S64x64_S64x64_1_0
    bcast_S100000_S100000x1_0 bcast_S100000x1_S100000x64_0_1 bcast_S64_S1x64_1 bcast_S1x64_S100000x64_0_1
    bcast_S_S100000x64 _ (Read.val_main_v31 (F := Ideal) x0 x1 x2 x3 x4) (divisor x1) x5 x7 x6

/-- The third layer, of the second layer's output. -/
theorem layer3_eq : Read.val_main_v87 (F := Ideal) x0 x1 x2 x3 x4 x5 x6 x7 x8 x9 x10
    = layer64 x1 (Read.val_main_v59 (F := Ideal) x0 x1 x2 x3 x4 x5 x6 x7) x8 x9 x10 := by
  unfold Read.val_main_v87 Read.val_main_call2_v0 Read.val_main_call2_cst Read.val_main_v86 Read.val_main_v85 Read.val_main_v84 Read.val_main_v83 Read.val_main_v82 Read.val_main_v81 Read.val_main_v80 Read.val_main_v79 Read.val_main_v78 Read.val_main_v77 Read.val_main_v76
  rw [agg_eq3, divisor_eq3]
  unfold layer64
  exact layer_ops dot_S100000x64_S64x64_S100000x64_1_0_0_1_n_n rfl rfl rfl rfl rfl rfl transposes_S64x64_S64x64_1_0
    bcast_S100000_S100000x1_0 bcast_S100000x1_S100000x64_0_1 bcast_S64_S1x64_1 bcast_S1x64_S100000x64_0_1
    bcast_S_S100000x64 _ (Read.val_main_v59 (F := Ideal) x0 x1 x2 x3 x4 x5 x6 x7) (divisor x1) x8 x10 x9

/-- The linear head, of the third layer's output. -/
theorem head_eq : Read.val_main_v92 (F := Ideal) x0 x1 x2 x3 x4 x5 x6 x7 x8 x9 x10 x11 x12
    = rHead (N := 100000) (C := 64) (H := 3) (Read.val_main_v87 (F := Ideal) x0 x1 x2 x3 x4 x5 x6 x7 x8 x9 x10) x11 x12 := by
  unfold Read.val_main_v92 Read.val_main_v91 Read.val_main_v90 Read.val_main_v89 Read.val_main_v88
  exact head_ops dot_S100000x64_S64x3_S100000x3_1_0_0_1_n_n rfl rfl rfl rfl rfl rfl transposes_S3x64_S64x3_1_0
    bcast_S3_S1x3_1 bcast_S1x3_S100000x3_0_1 (Read.val_main_v87 (F := Ideal) x0 x1 x2 x3 x4 x5 x6 x7 x8 x9 x10) x11 x12

end Stages

/-- The reference run's result term is the network of the argument arrays. -/
theorem res_eq (m : (ℓ : Loc nD τ sig) → Buf (Elt Ideal) ℓ) (c : Dev nD) :
    Cert.ReferenceIdeal.Value.res_main_v92 (F := Ideal) m c
      = rNet (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  rw [Read.val_main_v92_eq, head_eq, layer3_eq, layer2_eq, layer1_eq]
  rfl

end Cert.ReferenceIdeal.RefRead

end
-- ==== Proof.Bridge.lean ====
/-
  The two programs' networks are one function of the argument arrays.

  The pieces the host computes — the index columns, the in-degree, the divisor, the neighbour sums — are the same
  operations in both programs.  The divisor is the larger of the in-degree and one, so it is at least one and never
  zero; the reciprocal column holds `1 / divisor`; the weights one program is handed are the transposes of the
  weights the other reads transposed; the bias row is the bias vector.  With these the layer identity and the head
  identity of the specification apply, layer after layer.
-/
import proofs.«157071_j31585189495032_1_alg».proof.Proof.KDefs
import proofs.«157071_j31585189495032_1_alg».proof.Proof.RDefs
import proofs.«157071_j31585189495032_1_alg».proof.Proof.LibColumn
import Idealize.ShloMosaic.Lib.Pipeline.Value
import Idealize.ShloMosaic.Lib.ValueIdx
import Idealize.ShloMosaic.Lib.IdealHost

noncomputable section

namespace Cert.Bridge

open Idealize.ShloMosaic Idealize.ShloMosaic.ValueIdx Cert.Sage

/-! ## Layout facts, generic in the extents -/

/-- A transposed matrix read at `(k, q)` is the matrix at `(q, k)`. -/
theorem transpose_at {A B : ℕ} (w : Mat A B) (h : (⟨2, ![A, B]⟩ : Shape).Transposes [1, 0] ⟨2, ![B, A]⟩) (k : Fin B) (q : Fin A) :
    transpose ⟨2, ![B, A]⟩ [1, 0] w h (ix2 k q) = w (ix2 q k) :=
  transpose_apply [1, 0] w h (ix2 k q) (ix2 q k) fun b => by
    match b with
    | ⟨0, _⟩ => rfl
    | ⟨1, _⟩ => rfl

/-- A vector cast to a one-row matrix reads, at `(0, q)`, the vector at `q`. -/
theorem row_at {n : ℕ} (b : Vc n) (h : (⟨1, ![n]⟩ : Shape).ShapeCasts ⟨2, ![1, n]⟩) (q : Fin n) :
    shapeCast ⟨2, ![1, n]⟩ b h (ix2 (0 : Fin 1) q) = b (ix1 q) :=
  shapeCast_apply b h (ix2 (0 : Fin 1) q) (ix1 q) (by
    rw [Shape.rowMajor_val_two, Shape.rowMajor_val_one]
    show q.val = 0 * n + q.val
    omega)

/-! ## The host's pieces are the same in both programs -/

theorem divisor_eq (e : Cert.KernelIdeal.KVal.Edges) : Cert.KernelIdeal.KVal.divisor e = Cert.ReferenceIdeal.RVal.divisor e := rfl
theorem agg6_eq (e : Cert.KernelIdeal.KVal.Edges) (h : FVec Ideal ⟨2, ![100000, 6]⟩ .f32) : Cert.KernelIdeal.KVal.agg6 e h = Cert.ReferenceIdeal.RVal.agg6 e h := rfl
theorem agg64_eq (e : Cert.KernelIdeal.KVal.Edges) (h : FVec Ideal ⟨2, ![100000, 64]⟩ .f32) : Cert.KernelIdeal.KVal.agg64 e h = Cert.ReferenceIdeal.RVal.agg64 e h := rfl

/-- The broadcast of the word of one reads one at every node. -/
theorem ones_at (p : Fin 100000) :
    broadcastInDim Cert.ReferenceIdeal.S100000 ![] Cert.ReferenceIdeal.Facts₀.bcast_S_S100000
      (constant (F := Ideal) Cert.ReferenceIdeal.S_ .f32 0x3F800000#32) (ix1 p) = (1 : EReal) := by
  rw [broadcastInDim_scalar_apply]
  show FloatOps.ofBits (F := Ideal) .f32 0x3F800000#32 = 1
  rw [Ideal.ofBits_def, Ideal.ofBits_one_f32]

/-- The maximum of any per-node vector with the broadcast one, at a node, is the larger of the entry and one. -/
theorem max_ones_at (g : FVec Ideal Cert.ReferenceIdeal.S100000 .f32) (p : Fin 100000) :
    maximumf (F := Ideal) g (broadcastInDim Cert.ReferenceIdeal.S100000 ![] Cert.ReferenceIdeal.Facts₀.bcast_S_S100000
      (constant (F := Ideal) Cert.ReferenceIdeal.S_ .f32 0x3F800000#32)) (ix1 p) = max (g (ix1 p)) 1 := by
  show FloatOps.maximumf (F := Ideal) (g (ix1 p)) (broadcastInDim Cert.ReferenceIdeal.S100000 ![] Cert.ReferenceIdeal.Facts₀.bcast_S_S100000
      (constant (F := Ideal) Cert.ReferenceIdeal.S_ .f32 0x3F800000#32) (ix1 p)) = _
  rw [Ideal.maximumf_def, ones_at]

/-- Such a maximum is at least one, so it is not zero. -/
theorem max_ones_ne_zero (g : FVec Ideal Cert.ReferenceIdeal.S100000 .f32) (p : Fin 100000) :
    maximumf (F := Ideal) g (broadcastInDim Cert.ReferenceIdeal.S100000 ![] Cert.ReferenceIdeal.Facts₀.bcast_S_S100000
      (constant (F := Ideal) Cert.ReferenceIdeal.S_ .f32 0x3F800000#32)) (ix1 p) ≠ 0 := by
  rw [max_ones_at]
  intro h0
  have h1 : (1 : EReal) ≤ max (g (ix1 p)) 1 := le_max_right _ _
  rw [h0] at h1
  exact absurd h1 (by norm_num)

/-- The divisor is at least one, so it is not zero. -/
theorem divisor_ne_zero (e : Cert.ReferenceIdeal.RVal.Edges) (p : Fin 100000) : Cert.ReferenceIdeal.RVal.divisor e (ix1 p) ≠ 0 := by
  unfold Cert.ReferenceIdeal.RVal.divisor
  exact max_ones_ne_zero _ p

/-- One over any per-node vector, cast to a column, reads at a node one over the entry there. -/
theorem recip_col_at (d : FVec Ideal Cert.KernelIdeal.S100000 .f32) (p : Fin 100000) :
    shapeCast Cert.KernelIdeal.S100000x1 (Host.divf (F := Ideal) (broadcastInDim Cert.KernelIdeal.S100000 ![] Cert.KernelIdeal.Facts₀.bcast_S_S100000
      (constant (F := Ideal) Cert.KernelIdeal.S_ .f32 0x3F800000#32)) d) Cert.KernelIdeal.Facts₀.shapeCasts_S100000_S100000x1 (ix2 p (0 : Fin 1))
      = Ideal.div 1 (d (ix1 p)) := by
  refine (Cert.LibColumn.shapeCast_a_a1_apply _ _ p (0 : Fin 1)).trans ?_
  rw [hostDivf_apply]
  exact congrArg (fun a => Ideal.div a (d (ix1 p))) (ones_at p)

/-- The reciprocal column at a node is one over the divisor there. -/
theorem recip_at (e : Cert.KernelIdeal.KVal.Edges) (p : Fin 100000) :
    Cert.KernelIdeal.KVal.recip e (ix2 p (0 : Fin 1)) = Ideal.div 1 (Cert.ReferenceIdeal.RVal.divisor e (ix1 p)) := by
  unfold Cert.KernelIdeal.KVal.recip
  rw [divisor_eq]
  exact recip_col_at _ p

/-! ## The layers, the head, the network -/

theorem h1_eq (x : FVec Ideal ⟨2, ![100000, 6]⟩ .f32) (e : Cert.KernelIdeal.KVal.Edges) (w1l : FVec Ideal ⟨2, ![64, 6]⟩ .f32)
    (b1 : FVec Ideal ⟨1, ![64]⟩ .f32) (w1r : FVec Ideal ⟨2, ![64, 6]⟩ .f32) :
    Cert.KernelIdeal.KVal.h1 x e w1l b1 w1r = Cert.ReferenceIdeal.RVal.h1 x e w1l b1 w1r := by
  unfold Cert.KernelIdeal.KVal.h1 Cert.ReferenceIdeal.RVal.h1
  rw [agg6_eq]
  exact kLayer_eq_rLayer _ _ _ _ _ _ _ _ _ _ (divisor_ne_zero e) (recip_at e)
    (fun k q => transpose_at _ _ k q) (fun k q => transpose_at _ _ k q) (fun q => row_at _ _ q)

theorem layer64_eq (e : Cert.KernelIdeal.KVal.Edges) (h : FVec Ideal ⟨2, ![100000, 64]⟩ .f32) (wl : FVec Ideal ⟨2, ![64, 64]⟩ .f32)
    (b : FVec Ideal ⟨1, ![64]⟩ .f32) (wr : FVec Ideal ⟨2, ![64, 64]⟩ .f32) :
    Cert.KernelIdeal.KVal.layer64 e h wl b wr = Cert.ReferenceIdeal.RVal.layer64 e h wl b wr := by
  unfold Cert.KernelIdeal.KVal.layer64 Cert.ReferenceIdeal.RVal.layer64
  rw [agg64_eq]
  exact kLayer_eq_rLayer _ _ _ _ _ _ _ _ _ _ (divisor_ne_zero e) (recip_at e)
    (fun k q => transpose_at _ _ k q) (fun k q => transpose_at _ _ k q) (fun q => row_at _ _ q)

/-- The two networks are one function of the thirteen argument arrays. -/
theorem net_eq (x : FVec Ideal ⟨2, ![100000, 6]⟩ .f32) (e : Cert.KernelIdeal.KVal.Edges) (w1l : FVec Ideal ⟨2, ![64, 6]⟩ .f32)
    (b1 : FVec Ideal ⟨1, ![64]⟩ .f32) (w1r : FVec Ideal ⟨2, ![64, 6]⟩ .f32)
    (w2l : FVec Ideal ⟨2, ![64, 64]⟩ .f32) (b2 : FVec Ideal ⟨1, ![64]⟩ .f32) (w2r : FVec Ideal ⟨2, ![64, 64]⟩ .f32)
    (w3l : FVec Ideal ⟨2, ![64, 64]⟩ .f32) (b3 : FVec Ideal ⟨1, ![64]⟩ .f32) (w3r : FVec Ideal ⟨2, ![64, 64]⟩ .f32)
    (fcw : FVec Ideal ⟨2, ![3, 64]⟩ .f32) (fcb : FVec Ideal ⟨1, ![3]⟩ .f32) :
    Cert.KernelIdeal.KVal.kNet x e w1l b1 w1r w2l b2 w2r w3l b3 w3r fcw fcb = Cert.ReferenceIdeal.RVal.rNet x e w1l b1 w1r w2l b2 w2r w3l b3 w3r fcw fcb := by
  unfold Cert.KernelIdeal.KVal.kNet Cert.ReferenceIdeal.RVal.rNet
  rw [h1_eq, layer64_eq, layer64_eq]
  exact kHead_eq_rHead _ _ _ _ _ (fun k q => transpose_at _ _ k q) (fun q => row_at _ _ q)

end Cert.Bridge

end
-- ==== Proof.lean ====
/-
  A three-layer mean-aggregating graph network with a linear head, computed two ways, is one function of its
  arguments on the extended reals.

  The kernel program computes, on the host, the in-degree of every node (a scatter-add of ones), its reciprocal
  `1 / max(degree, 1)` as a column, and per layer the neighbour sums (the source rows gathered and added up per
  destination); each layer's arithmetic — (sums · reciprocal) · Wlᵀ + x · Wrᵀ + b, maximum with zero — runs in a
  pallas_call over blocks of 5000 nodes, and a fourth call applies the linear head.  The reference divides the
  neighbour sums by `max(degree, 1)`, contracts with the weights read transposed, adds the bias and then the self
  term, and takes the maximum with zero.

  The parts: Spec.lean states a layer and the head both ways and proves them equal (multiplying by `1 / d` is dividing
  by `d` for a divisor that is not zero, and the three-term sum in either order); KDefs.lean and RDefs.lean name each
  program's network as one function of the thirteen argument arrays; Region0–3.lean read each call's output array as
  the layer (or head) of the arrays the call finds; KernelRun.lean and Fold.lean read the kernel program's result back
  through its host stretches and calls to that function of the arguments; RefNet.lean does the same for the
  reference's run; Bridge.lean shows the two functions equal (the divisor is at least one, hence not zero; no
  finiteness of the inputs is used).  The idealized kernel is the kernel's own text read on the extended reals, so
  nothing is owed for it.
-/
import proofs.«157071_j31585189495032_1_alg».proof.Defs
import proofs.«157071_j31585189495032_1_alg».proof.Proof.Gen.Kernel
import proofs.«157071_j31585189495032_1_alg».proof.Proof.Gen.Kernel.Skeleton
import proofs.«157071_j31585189495032_1_alg».proof.Proof.Gen.Kernel.Launch
import proofs.«157071_j31585189495032_1_alg».proof.Proof.Gen.Kernel.Points
import proofs.«157071_j31585189495032_1_alg».proof.Proof.Gen.Kernel.Frame
import proofs.«157071_j31585189495032_1_alg».proof.Proof.Gen.KernelIdeal
import proofs.«157071_j31585189495032_1_alg».proof.Proof.Gen.KernelIdeal.Skeleton
import proofs.«157071_j31585189495032_1_alg».proof.Proof.Gen.KernelIdeal.Launch
import proofs.«157071_j31585189495032_1_alg».proof.Proof.Gen.KernelIdeal.Points
import proofs.«157071_j31585189495032_1_alg».proof.Proof.Gen.KernelIdeal.Frame
import proofs.«157071_j31585189495032_1_alg».proof.Proof.Gen.ReferenceIdeal
import proofs.«157071_j31585189495032_1_alg».proof.Proof.Gen.Pre_finite_inputs
import proofs.«157071_j31585189495032_1_alg».proof.Proof.Gen.ReferenceIdeal.Run
import proofs.«157071_j31585189495032_1_alg».proof.Proof.Gen.ReferenceIdeal.Read
import proofs.«157071_j31585189495032_1_alg».proof.Proof.KernelRun
import proofs.«157071_j31585189495032_1_alg».proof.Proof.Fold
import proofs.«157071_j31585189495032_1_alg».proof.Proof.Region0
import proofs.«157071_j31585189495032_1_alg».proof.Proof.Region1
import proofs.«157071_j31585189495032_1_alg».proof.Proof.Region2
import proofs.«157071_j31585189495032_1_alg».proof.Proof.Region3
import proofs.«157071_j31585189495032_1_alg».proof.Proof.RefNet
import proofs.«157071_j31585189495032_1_alg».proof.Proof.Bridge
import Idealize.ShloMosaic.Adequacy
import Idealize.ShloMosaic.Init

noncomputable section

namespace Cert.Proof

open Idealize.ShloMosaic Idealize.SL.Sem

/-- The kernel program terminates without a fault and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the kernel program's arguments: the kernel program by its run read back
    through its segments, the reference by its run read back, its arguments agreeing with the kernel program's, and
    the two networks being one function. -/
theorem algebraic : Cert.algebraic_KernelIdeal_ReferenceIdeal := by
  intro m ρ m' ρ' _ hagree
  refine ⟨fun c => Cert.KernelIdeal.KVal.kNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.result_eq m ρ
          Cert.KernelIdeal.RegionValue.final0 Cert.KernelIdeal.RegionValue.final1
          Cert.KernelIdeal.RegionValue.final2 Cert.KernelIdeal.RegionValue.final3 c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.RefRead.res_eq, h0, h1, h2, h3, h4, h5, h6, h7, h8, h9, h10, h11, h12]
    exact (Cert.Bridge.net_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
